-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x4096x1024 : Shape := ⟨3, ![32, 4096, 1024]⟩
abbrev S1024x1024 : Shape := ⟨2, ![1024, 1024]⟩
abbrev S1024 : Shape := ⟨1, ![1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x4096x1024 : S_.BroadcastsInDim S32x4096x1024 (![] : Fin 0 → Fin S32x4096x1024.rank)
  reducesTo_S32x4096x1024_S_d0_1_2 : S32x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32x1024 .f32) (main_arg1 : FVec F S32x4096x1024 .f32) (main_arg2 : FVec F S32x4096x1024 .f32) (main_arg3 : FVec F S1024x1024 .f32) (main_arg4 : FVec F S1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x4096x1024 .f32 := Host.absf main_arg1
  let main_cst_0 : FVec F S_ .f32 := constant S_ .f32 0x7F800000#32
  let main_v5 : FVec F S32x4096x1024 .f32 := broadcastInDim S32x4096x1024 ![] bcast_S_S32x4096x1024 main_cst_0
  let main_v6 : IVec S32x4096x1024 1 := cmpf .olt main_v4 main_v5
  let main_c_1 : IVec S_ 1 := constantI S_ 1 1#1
  let main_v7 : IVec S_ 1 := (fun x v => Host.reduce IntOp.andi x v reducesTo_S32x4096x1024_S_d0_1_2 h_S_) main_v6 main_c_1
  let main_v8 : IVec S_ 1 := andi main_v3 main_v7
  let main_v9 : FVec F S32x4096x1024 .f32 := Host.absf main_arg2
  let main_cst_2 : FVec F S_ .f32 := constant S_ .f32 0x7F800000#32
  let main_v10 : FVec F S32x4096x1024 .f32 := broadcastInDim S32x4096x1024 ![] bcast_S_S32x4096x1024 main_cst_2
  let main_v11 : IVec S32x4096x1024 1 := cmpf .olt main_v9 main_v10
  let main_c_3 : IVec S_ 1 := constantI S_ 1 1#1
  let main_v12 : IVec S_ 1 := (fun x v => Host.reduce IntOp.andi x v reducesTo_S32x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S32x1024 : Shape := ⟨2, ![32, 1024]⟩
abbrev S32x4096x1024 : Shape := ⟨3, ![32, 4096, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S16 : Shape := ⟨1, ![16]⟩
abbrev S1x16 : Shape := ⟨2, ![1, 16]⟩
abbrev S1024x16 : Shape := ⟨2, ![1024, 16]⟩
abbrev S16x1024 : Shape := ⟨2, ![16, 1024]⟩
abbrev S32x1024x1 : Shape := ⟨3, ![32, 1024, 1]⟩
abbrev S1x1024x16 : Shape := ⟨3, ![1, 1024, 16]⟩
abbrev S32x1024x16 : Shape := ⟨3, ![32, 1024, 16]⟩
abbrev S1x1024 : Shape := ⟨2, ![1, 1024]⟩
abbrev S32x1x1024 : Shape := ⟨3, ![32, 1, 1024]⟩
abbrev S1x1024x1024 : Shape := ⟨3, ![1, 1024, 1024]⟩
abbrev S1x1x1024 : Shape := ⟨3, ![1, 1, 1024]⟩

abbrev nBuf : Space → Nat
  | .hbm => 41
  | .vmem => 14
  | .smem => 0
  | _ => 0

abbrev bufTy : (tb : Table) → Fin (tcTables nBuf tb) → BufTy
  | .hbm, ⟨0, _⟩ => ⟨S32x1024, .f32⟩
  | .hbm, ⟨1, _⟩ => ⟨S32x4096x1024, .f32⟩
  | .hbm, ⟨2, _⟩ => ⟨S32x4096x1024, .f32⟩
  | .hbm, ⟨3, _⟩ => ⟨S1024x1024, .f32⟩
  | .hbm, ⟨4, _⟩ => ⟨S1024, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S16, .i32⟩
  | .hbm, ⟨26, _⟩ => ⟨S1x16, .i32⟩
  | .hbm, ⟨27, _⟩ => ⟨S1024x16, .i32⟩
  | .hbm, ⟨28, _⟩ => ⟨S1024x16, .i32⟩
  | .hbm, ⟨29, _⟩ => ⟨S1024x16, .i1⟩
  | .hbm, ⟨30, _⟩ => ⟨S1024x16, .f32⟩
  | .hbm, ⟨31, _⟩ => ⟨S16x1024, .f32⟩
  | .hbm, ⟨32, _⟩ => ⟨S32x1024x1, .f32⟩
  | .hbm, ⟨33, _⟩ => ⟨S1x1024x16, .f32⟩
  | .hbm, ⟨34, _⟩ => ⟨S32x1024x16, .f32⟩
  | .hbm, ⟨35, _⟩ => ⟨S32x1024x16, .f32⟩
  | .hbm, ⟨36, _⟩ => ⟨S32x1024x16, .f32⟩
  | .hbm, ⟨37, _⟩ => ⟨S1024x1024, .f32⟩
  | .hbm, ⟨38, _⟩ => ⟨S1x1024, .f32⟩
  | .hbm, ⟨39, _⟩ => ⟨S32x1x1024, .f32⟩
  | .hbm, ⟨40, _⟩ => ⟨S32x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x16, .f32⟩
  | .local _ .vmem, ⟨5, _⟩ => ⟨S1x1024x16, .f32⟩
  | .local _ .vmem, ⟨6, _⟩ => ⟨S16x1024, .f32⟩
  | .local _ .vmem, ⟨7, _⟩ => ⟨S1024x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x16, .f32⟩
  | .local _ .vmem, ⟨12, _⟩ => ⟨S1x16, .f32⟩
  | .local _ .vmem, ⟨13, _⟩ => ⟨S1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_31 : BitVec 32 := 0#32
  let v52 : BitVec 1 := Scalar.cmpi .ne v51 c0_i32_31
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  transposes_S1024x16_S16x1024_1_0 : S1024x16.Transposes [1, 0] S16x1024
  bcast_S32x1024_S32x1024x1_0_1 : S32x1024.BroadcastsInDim S32x1024x1 (![0, 1] : Fin 2 → Fin S32x1024x1.rank)
  bcast_S1024x16_S1x1024x16_1_2 : S1024x16.BroadcastsInDim S1x1024x16 (![1, 2] : Fin 2 → Fin S1x1024x16.rank)
  bcast_S32x1024x1_S32x1024x16_0_1_2 : S32x1024x1.BroadcastsInDim S32x1024x16 (![0, 1, 2] : Fin 3 → Fin S32x1024x16.rank)
  bcast_S1x1024x16_S32x1024x16_0_1_2 : S1x1024x16.BroadcastsInDim S32x1024x16 (![0, 1, 2] : Fin 3 → Fin S32x1024x16.rank)
  transposes_S1024x1024_S1024x1024_1_0 : S1024x1024.Transposes [1, 0] S1024x1024
  shapeCasts_S1024_S1x1024 : S1024.ShapeCasts S1x1024
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  bitsLt_bf16_f32 : FTy.bits .bf16 < FTy.bits .f32
  reduces_S1024x16_S16 : S1024x16.Reduces [0] S16
  shapeCasts_S16_S1x16 : S16.ShapeCasts S1x16
  broadcasts_S1x16_S1024x16 : S1x16.Broadcasts S1024x16
  reduces_S1024x1024_S1024 : S1024x1024.Reduces [0] S1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S32x1x1024_S32x1024 : S32x1x1024.ShapeCasts S32x1024
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  dot_S1x16_S16x1024_S1x1024_1_0_0_1_n_n_wf : DotDims.WF S1x16 S16x1024 S1x1024 [1] [0] [0] [1] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x4096x1024.size a
  hwx0_0 : ∀ i : grid0.Coords, EltTy.bits .f32 = 32 ∨ (Rect.block (s := S32x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x4096x1024.size a
  hwx0_1 : ∀ i : grid0.Coords, EltTy.bits .f32 = 32 ∨ (Rect.block (s := S32x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x16.size a ≤ S32x1024x16.size a
  hwx0_2 : ∀ i : grid0.Coords, EltTy.bits .f32 = 32 ∨ (Rect.block (s := S32x1024x16) S1x1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .f32 = 32 ∨ (Rect.block (s := S16x1024) S16x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S32x1x1024.size a
  hwx0_6 : ∀ i : grid0.Coords, EltTy.bits .f32 = 32 ∨ (Rect.block (s := S32x1x1024) S1x1x1024.size (cc0_transform_6 i) (hinb0_6 i)).WholeWords (EltTy.packing .f32)

variable [Facts₀]

def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1x16_S16x1024_S1x1024_1_0_0_1_n_n : DotDims S1x16 S16x1024 S1x1024 where
  lhsContracting := [1]
  rhsContracting := [0]
  lhsNonContracting := [0]
  rhsNonContracting := [1]
  lhsBatch := []
  rhsBatch := []
  wf := dot_S1x16_S16x1024_S1x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x1024 : Shape := ⟨2, ![32, 1024]⟩
abbrev S32x4096x1024 : Shape := ⟨3, ![32, 4096, 1024]⟩
abbrev S1024x1024 : Shape := ⟨2, ![1024, 1024]⟩
abbrev S1024 : Shape := ⟨1, ![1024]⟩
abbrev S32x1x16x64 : Shape := ⟨4, ![32, 1, 16, 64]⟩
abbrev S32x16x1x64 : Shape := ⟨4, ![32, 16, 1, 64]⟩
abbrev S32x4096x16x64 : Shape := ⟨4, ![32, 4096, 16, 64]⟩
abbrev S32x16x4096x64 : Shape := ⟨4, ![32, 16, 4096, 64]⟩
abbrev S_ : Shape := ⟨0, ![]⟩
abbrev S32x16x1x4096 : Shape := ⟨4, ![32, 16, 1, 4096]⟩
abbrev S32x16x1 : Shape := ⟨3, ![32, 16, 1]⟩
abbrev S32x16x1x1 : Shape := ⟨4, ![32, 16, 1, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x4096x1024, .f32⟩
  | .hbm, ⟨2, _⟩ => ⟨S32x4096x1024, .f32⟩
  | .hbm, ⟨3, _⟩ => ⟨S1024x1024, .f32⟩
  | .hbm, ⟨4, _⟩ => ⟨S1024, .f32⟩
  | .hbm, ⟨5, _⟩ => ⟨S32x1x16x64, .f32⟩
  | .hbm, ⟨6, _⟩ => ⟨S32x16x1x64, .f32⟩
  | .hbm, ⟨7, _⟩ => ⟨S32x4096x16x64, .f32⟩
  | .hbm, ⟨8, _⟩ => ⟨S32x16x4096x64, .f32⟩
  | .hbm, ⟨9, _⟩ => ⟨S32x4096x16x64, .f32⟩
  | .hbm, ⟨10, _⟩ => ⟨S32x16x4096x64, .f32⟩
  | .hbm, ⟨11, _⟩ => ⟨S_, .f32⟩
  | .hbm, ⟨12, _⟩ => ⟨S_, .f32⟩
  | .hbm, ⟨13, _⟩ => ⟨S32x16x1x4096, .f32⟩
  | .hbm, ⟨14, _⟩ => ⟨S32x16x1x4096, .f32⟩
  | .hbm, ⟨15, _⟩ => ⟨S32x16x1x4096, .f32⟩
  | .hbm, ⟨16, _⟩ => ⟨S_, .f32⟩
  | .hbm, ⟨17, _⟩ => ⟨S32x16x1, .f32⟩
  | .hbm, ⟨18, _⟩ => ⟨S_, .f32⟩
  | .hbm, ⟨19, _⟩ => ⟨S32x16x1, .f32⟩
  | .hbm, ⟨20, _⟩ => ⟨S32x16x1, .f32⟩
  | .hbm, ⟨21, _⟩ => ⟨S32x16x1x1, .f32⟩
  | .hbm, ⟨22, _⟩ => ⟨S32x16x1x4096, .f32⟩
  | .hbm, ⟨23, _⟩ => ⟨S32x16x1x4096, .f32⟩
  | .hbm, ⟨24, _⟩ => ⟨S32x16x1x4096, .f32⟩
  | .hbm, ⟨25, _⟩ => ⟨S_, .f32⟩
  | .hbm, ⟨26, _⟩ => ⟨S32x16x1, .f32⟩
  | .hbm, ⟨27, _⟩ => ⟨S32x16x1x1, .f32⟩
  | .hbm, ⟨28, _⟩ => ⟨S32x16x1x4096, .f32⟩
  | .hbm, ⟨29, _⟩ => ⟨S32x16x1x4096, .f32⟩
  | .hbm, ⟨30, _⟩ => ⟨S32x16x1x64, .f32⟩
  | .hbm, ⟨31, _⟩ => ⟨S32x1x16x64, .f32⟩
  | .hbm, ⟨32, _⟩ => ⟨S32x1024, .f32⟩
  | .hbm, ⟨33, _⟩ => ⟨S1024x1024, .f32⟩
  | .hbm, ⟨34, _⟩ => ⟨S32x1024, .f32⟩
  | .hbm, ⟨35, _⟩ => ⟨S1x1024, .f32⟩
  | .hbm, ⟨36, _⟩ => ⟨S32x1024, .f32⟩
  | .hbm, ⟨37, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S32x1024_S32x1x16x64 : S32x1024.ShapeCasts S32x1x16x64
  transposes_S32x1x16x64_S32x16x1x64_0_2_1_3 : S32x1x16x64.Transposes [0, 2, 1, 3] S32x16x1x64
  shapeCasts_S32x4096x1024_S32x4096x16x64 : S32x4096x1024.ShapeCasts S32x4096x16x64
  transposes_S32x4096x16x64_S32x16x4096x64_0_2_1_3 : S32x4096x16x64.Transposes [0, 2, 1, 3] S32x16x4096x64
  bcast_S_S32x16x1x4096 : S_.BroadcastsInDim S32x16x1x4096 (![] : Fin 0 → Fin S32x16x1x4096.rank)
  reducesTo_S32x16x1x4096_S32x16x1_d3 : S32x16x1x4096.ReducesTo [3] S32x16x1
  h_S_ : 0 < S_.numel
  bcast_S_S32x16x1 : S_.BroadcastsInDim S32x16x1 (![] : Fin 0 → Fin S32x16x1.rank)
  bcast_S32x16x1_S32x16x1x1_0_1_2 : S32x16x1.BroadcastsInDim S32x16x1x1 (![0, 1, 2] : Fin 3 → Fin S32x16x1x1.rank)
  bcast_S32x16x1x1_S32x16x1x4096_0_1_2_3 : S32x16x1x1.BroadcastsInDim S32x16x1x4096 (![0, 1, 2, 3] : Fin 4 → Fin S32x16x1x4096.rank)
  transposes_S32x16x1x64_S32x1x16x64_0_2_1_3 : S32x16x1x64.Transposes [0, 2, 1, 3] S32x1x16x64
  shapeCasts_S32x1x16x64_S32x1024 : S32x1x16x64.ShapeCasts S32x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  dot_S32x16x1x64_S32x16x4096x64_S32x16x1x4096_3_3_2_2_01_01_wf : DotDims.WF S32x16x1x64 S32x16x4096x64 S32x16x1x4096 [3] [3] [2] [2] [0, 1] [0, 1]
  dot_S32x16x1x4096_S32x16x4096x64_S32x16x1x64_3_2_2_3_01_01_wf : DotDims.WF S32x16x1x4096 S32x16x4096x64 S32x16x1x64 [3] [2] [2] [3] [0, 1] [0, 1]
  dot_S32x1024_S1024x1024_S32x1024_1_0_0_1_n_n_wf : DotDims.WF S32x1024 S1024x1024 S32x1024 [1] [0] [0] [1] [] []

variable [Facts₀]

def dot_S32x16x1x64_S32x16x4096x64_S32x16x1x4096_3_3_2_2_01_01 : DotDims S32x16x1x64 S32x16x4096x64 S32x16x1x4096 where
  lhsContracting := [3]
  rhsContracting := [3]
  lhsNonContracting := [2]
  rhsNonContracting := [2]
  lhsBatch := [0, 1]
  rhsBatch := [0, 1]
  wf := dot_S32x16x1x64_S32x16x4096x64_S32x16x1x4096_3_3_2_2_01_01_wf
def dot_S32x16x1x4096_S32x16x4096x64_S32x16x1x64_3_2_2_3_01_01 : DotDims S32x16x1x4096 S32x16x4096x64 S32x16x1x64 where
  lhsContracting := [3]
  rhsContracting := [2]
  lhsNonContracting := [2]
  rhsNonContracting := [3]
  lhsBatch := [0, 1]
  rhsBatch := [0, 1]
  wf := dot_S32x16x1x4096_S32x16x4096x64_S32x16x1x64_3_2_2_3_01_01_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.Spec.lean ====
/-
  Single-query multi-head attention followed by a linear layer, as ONE function of the argument arrays.

  The hidden axis of 1024 columns is sixteen heads of 64 columns; column `c` belongs to head `c / 64`.
  For batch `b`, head `h` and key row `s` the score is `e = (∑_{d < 64} q[b, 64h+d] · k[b, s, 64h+d]) / 8`; the context at
  column `c` is the softmax-weighted mean `(∑_s exp e[b, c/64, s] · v[b, s, c]) / (∑_s exp e[b, c/64, s])` (a softmax does
  not depend on the number subtracted from the scores before exponentiating, so none is subtracted here); the result is
  `out[b, j] = (∑_c ctx[b, c] · w[j, c]) + β[j]`. The arrays being finite, everything is a real number, and the
  function is stated over the real parts of the entries.
-/
import Idealize.ShloMosaic.PureOps.Ideal
import Idealize.ShloMosaic.Lib.ValueIdx

noncomputable section

open scoped BigOperators

namespace Cert.Attn

open Idealize.ShloMosaic Idealize.ShloMosaic.ValueIdx

/-- Column `64·h + d`: column `d` of head `h`. -/
def hd (h : Fin 16) (d : Fin 64) : Fin 1024 := ⟨64 * h.val + d.val, by omega⟩

/-- The head a column belongs to. -/
def hOf (c : Fin 1024) : Fin 16 := ⟨c.val / 64, by omega⟩

/-- A column's place inside its head. -/
def dOf (c : Fin 1024) : Fin 64 := ⟨c.val % 64, Nat.mod_lt _ (by decide)⟩

theorem hd_hOf_dOf (c : Fin 1024) : hd (hOf c) (dOf c) = c :=
  Fin.ext (by simp only [hd, hOf, dOf]; omega)

theorem hOf_hd (h : Fin 16) (d : Fin 64) : hOf (hd h d) = h :=
  Fin.ext (by simp only [hd, hOf]; omega)

theorem dOf_hd (h : Fin 16) (d : Fin 64) : dOf (hd h d) = d :=
  Fin.ext (by simp only [hd, dOf]; omega)

/-- Key row `1024·i + r`: row `r` of the `i`-th tile of 1024 rows. -/
def row (i : Fin 4) (r : Fin 1024) : Fin 4096 := ⟨1024 * i.val + r.val, by omega⟩

section Real

variable (q : Fin 32 → Fin 1024 → ℝ) (k v : Fin 32 → Fin 4096 → Fin 1024 → ℝ) (w : Fin 1024 → Fin 1024 → ℝ)
  (β : Fin 1024 → ℝ)

/-- The scaled score of key row `s` for head `h` of batch `b`. -/
def score (b : Fin 32) (h : Fin 16) (s : Fin 4096) : ℝ := (∑ d : Fin 64, q b (hd h d) * k b s (hd h d)) / 8

/-- The softmax-weighted mean of the value rows, at column `c`. -/
def ctx (b : Fin 32) (c : Fin 1024) : ℝ :=
  (∑ s : Fin 4096, Real.exp (score q k b (hOf c) s) * v b s c) / (∑ s : Fin 4096, Real.exp (score q k b (hOf c) s))

/-- The linear layer on the context. -/
def out (b : Fin 32) (j : Fin 1024) : ℝ := (∑ c : Fin 1024, ctx q k v b c * w j c) + β j

end Real

/-- Every entry of an array is a real number. -/
def IsReal {S : Shape} (x : S.Idx → EReal) : Prop := ∀ i, ∃ r : ℝ, x i = (r : EReal)

theorem IsReal.coe_toReal {S : Shape} {x : S.Idx → EReal} (hx : IsReal x) (i : S.Idx) : x i = ((x i).toReal : EReal) := by
  obtain ⟨r, hr⟩ := hx i
  rw [hr, EReal.toReal_coe]

/-- The real parts of a rank-1, rank-2, rank-3 array, by coordinates. -/
def re1 {a : Nat} (x : (⟨1, ![a]⟩ : Shape).Idx → EReal) : Fin a → ℝ := fun i => (x (ix1 i)).toReal
def re2 {a b : Nat} (x : (⟨2, ![a, b]⟩ : Shape).Idx → EReal) : Fin a → Fin b → ℝ := fun i j => (x (ix2 i j)).toReal
def re3 {a b c : Nat} (x : (⟨3, ![a, b, c]⟩ : Shape).Idx → EReal) : Fin a → Fin b → Fin c → ℝ :=
  fun i j l => (x (ix3 i j l)).toReal

theorem IsReal.re1 {a : Nat} {x : (⟨1, ![a]⟩ : Shape).Idx → EReal} (hx : IsReal x) (i : Fin a) :
    x (ix1 i) = ((Cert.Attn.re1 x i : ℝ) : EReal) := hx.coe_toReal _
theorem IsReal.re2 {a b : Nat} {x : (⟨2, ![a, b]⟩ : Shape).Idx → EReal} (hx : IsReal x) (i : Fin a) (j : Fin b) :
    x (ix2 i j) = ((Cert.Attn.re2 x i j : ℝ) : EReal) := hx.coe_toReal _
theorem IsReal.re3 {a b c : Nat} {x : (⟨3, ![a, b, c]⟩ : Shape).Idx → EReal} (hx : IsReal x) (i : Fin a) (j : Fin b)
    (l : Fin c) : x (ix3 i j l) = ((Cert.Attn.re3 x i j l : ℝ) : EReal) := hx.coe_toReal _

/-- THE RESULT, entry `(b, j)`, as a function of the five argument arrays. -/
def G (Q : (⟨2, ![32, 1024]⟩ : Shape).Idx → EReal) (K V : (⟨3, ![32, 4096, 1024]⟩ : Shape).Idx → EReal)
    (W : (⟨2, ![1024, 1024]⟩ : Shape).Idx → EReal) (B : (⟨1, ![1024]⟩ : Shape).Idx → EReal) (b : Fin 32) (j : Fin 1024) : EReal :=
  ((out (re2 Q) (re3 K) (re3 V) (re2 W) (re1 B) b j : ℝ) : EReal)

/-- What the kernel's three running quantities hold once the key tiles in `I` of batch `b` are absorbed: some real shift
    `μ h` per head (the running maximum; its value never matters), the sums of `exp (score − μ)` over the absorbed rows, and
    the sums of `exp (score − μ) · v` over them. -/
def Absorbed (q : Fin 32 → Fin 1024 → ℝ) (k v : Fin 32 → Fin 4096 → Fin 1024 → ℝ) (b : Fin 32) (I : Finset (Fin 4))
    (mS lS : (⟨2, ![1, 16]⟩ : Shape).Idx → EReal) (aS : (⟨2, ![1, 1024]⟩ : Shape).Idx → EReal) : Prop :=
  ∃ μ : Fin 16 → ℝ, (∀ h : Fin 16, mS (ix2 (0 : Fin 1) h) = ((μ h : ℝ) : EReal))
    ∧ (∀ h : Fin 16, lS (ix2 (0 : Fin 1) h)
        = ((∑ i ∈ I, ∑ r : Fin 1024, Real.exp (score q k b h (row i r) - μ h) : ℝ) : EReal))
    ∧ (∀ c : Fin 1024, aS (ix2 (0 : Fin 1) c)
        = ((∑ i ∈ I, ∑ r : Fin 1024, Real.exp (score q k b (hOf c) (row i r) - μ (hOf c)) * v b (row i r) c : ℝ) : EReal))

end Cert.Attn

end
-- ==== Proof.FiniteArgs.lean ====
/-
  From "every float input is finite" to "every entry of each argument array is a real number".

  The precondition is the conjunction, over the five argument arrays, of `all (|x| < +∞)`: each array's
  entries are compared, in absolute value, with the float `+∞`, the comparisons are reduced by `and` over
  every axis, and the five results are joined by `and`. The whole being 1, each reduction is 1, so each
  comparison is 1 at every index; and an extended real `x` with `max x (-x) < ⊤` is neither `⊤` nor `⊥`,
  hence the coercion of a real number.
-/
import proofs.«137162_j44925357916178_2_alg».proof.Pre_finite_inputs
import proofs.«137162_j44925357916178_2_alg».proof.Proof.Gen.Pre_finite_inputs
import proofs.«137162_j44925357916178_2_alg».proof.Proof.Spec
import Idealize.ShloMosaic.Lib.ReduceAll

namespace Cert.Attn.Finite

open Idealize.ShloMosaic Cert.Pre_finite_inputs

instance : Subsingleton S_.Idx := ⟨fun a b => funext fun d => d.elim0⟩

/-- The bit pattern of the float `+∞` denotes `⊤`. -/
theorem ofBits_inf : Ideal.ofBits .f32 0x7F800000#32 = (⊤ : EReal) := by
  simp [Ideal.ofBits, Ideal.ieee]

/-- An extended real whose absolute value `max x (-x)` is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- `jnp.all (|x| < +∞)` being 1 says that every entry of `x` is a real number. -/
theorem isReal_of_all {S : Shape} {axes : List (Fin S.rank)} (hb : S_.BroadcastsInDim S (![] : Fin 0 → Fin S.rank))
    (hr : S.ReducesTo axes S_) (hu : 0 < S_.numel) (x : FVec Ideal S .f32)
    (e : Host.reduce IntOp.andi (cmpf .olt (Host.absf x) (broadcastInDim S ![] hb (constant S_ .f32 0x7F800000#32)))
      (constantI S_ 1 1#1) hr hu ValueIdx.ix0 = 1#1) : Cert.Attn.IsReal x := by
  intro i
  have hi := Host.reduce_andi_all _ _ hr hu _ e i
  exact real_of_abs_lt_inf (x i) hi

theorem isReal_of_pre [Cert.Pre_finite_inputs.Facts]
    (x0 : FVec Ideal S32x1024 .f32) (x1 x2 : FVec Ideal S32x4096x1024 .f32)
    (x3 : FVec Ideal S1024x1024 .f32) (x4 : FVec Ideal S1024 .f32)
    (h : Cert.Pre_finite_inputs.fn (F := Ideal) x0 x1 x2 x3 x4 = fun _ => 1#1) :
    Cert.Attn.IsReal x0 ∧ Cert.Attn.IsReal x1 ∧ Cert.Attn.IsReal x2 ∧ Cert.Attn.IsReal x3 ∧ Cert.Attn.IsReal x4 := by
  have h0 := congrFun h ValueIdx.ix0
  dsimp only [fn, fn_part1, Idealize.ShloMosaic.andi] at h0
  rw [IntOp.andi_eq_one, IntOp.andi_eq_one, IntOp.andi_eq_one, IntOp.andi_eq_one] at h0
  obtain ⟨⟨⟨⟨a0, a1⟩, a2⟩, a3⟩, a4⟩ := h0
  exact ⟨isReal_of_all _ _ _ x0 a0, isReal_of_all _ _ _ x1 a1, isReal_of_all _ _ _ x2 a2, isReal_of_all _ _ _ x3 a3,
    isReal_of_all _ _ _ x4 a4⟩

end Cert.Attn.Finite
-- ==== Proof.LibTileSums.lean ====
/-
  Finite sums over tiled index sets, in any commutative additive monoid (no distributivity, no cancellation):
  a sum over `Fin (n * b)` read as `n` blocks of `b` consecutive indices, the 8192 × 8192 square read as
  16 × 8 tiles of 512 × 1024, and a sparse 128 × 128 array whose only nonzero entries sit at rows divisible by 8
  of column 0.
-/
import Mathlib

open scoped BigOperators

namespace Cert.PairLoss.Sums

/-- The index `b * a + r` of entry `r` of block `a` lies below `n * b`. -/
theorem block_lt {n b : ℕ} (a : Fin n) (r : Fin b) : b * a.val + r.val < n * b := by
  have ha : a.val + 1 ≤ n := a.isLt
  have hr : r.val < b := r.isLt
  calc b * a.val + r.val < b * a.val + b := by omega
    _ = b * (a.val + 1) := by ring
    _ ≤ b * n := Nat.mul_le_mul_left b ha
    _ = n * b := Nat.mul_comm b n

/-- A sum over `Fin (n * b)` is the sum over the `n` blocks of the sum over the `b` entries of each block;
entry `r` of block `a` is the index `b * a + r`. -/
theorem sum_blocks {M : Type*} [AddCommMonoid M] {n b : ℕ} (g : Fin (n * b) → M) :
    ∑ a : Fin n, ∑ r : Fin b, g ⟨b * a.val + r.val, block_lt a r⟩ = ∑ i : Fin (n * b), g i := by
  rw [← Fintype.sum_prod_type' (f := fun (a : Fin n) (r : Fin b) => g ⟨b * a.val + r.val, block_lt a r⟩)]
  rw [← Equiv.sum_comp (finProdFinEquiv (m := n) (n := b)) g]
  refine Finset.sum_congr rfl ?_
  rintro ⟨a, r⟩ _
  congr 1
  apply Fin.ext
  simp [finProdFinEquiv, Nat.add_comm]

/-- The square `Fin 8192 × Fin 8192` summed tile by tile: 16 row tiles of 512 rows, 8 column tiles of 1024 columns,
with the column tiles innermost. -/
theorem sum_tiles {M : Type*} [AddCommMonoid M] (f : Fin 8192 → Fin 8192 → M) :
    ∑ a : Fin 16, ∑ r : Fin 512, ∑ q : Fin 1024, ∑ j : Fin 8,
        f ⟨512 * a.val + r.val, block_lt (n := 16) (b := 512) a r⟩
          ⟨1024 * j.val + q.val, block_lt (n := 8) (b := 1024) j q⟩
      = ∑ i : Fin 8192, ∑ j : Fin 8192, f i j := by
  have hcols : ∀ i : Fin 8192,
      ∑ q : Fin 1024, ∑ j : Fin 8, f i ⟨1024 * j.val + q.val, block_lt (n := 8) (b := 1024) j q⟩
        = ∑ j : Fin 8192, f i j := by
    intro i
    rw [Finset.sum_comm]
    exact sum_blocks (n := 8) (b := 1024) (fun j => f i j)
  simp only [hcols]
  exact sum_blocks (n := 16) (b := 512) (fun i => ∑ j : Fin 8192, f i j)

/-- A 128 × 128 array that carries `g a` at row `8 * a` of column 0 and zero everywhere else sums to `∑ a, g a`. -/
theorem sum_sparse {M : Type*} [AddCommMonoid M] (g : Fin 16 → M) :
    ∑ r : Fin 128, ∑ c : Fin 128,
        (if r.val % 8 = 0 ∧ c.val = 0 then g ⟨r.val / 8, by have := r.isLt; omega⟩ else 0)
      = ∑ a : Fin 16, g a := by
  have hrow : ∀ r : Fin 128,
      ∑ c : Fin 128, (if r.val % 8 = 0 ∧ c.val = 0 then g ⟨r.val / 8, by have := r.isLt; omega⟩ else 0)
        = if r.val % 8 = 0 then g ⟨r.val / 8, by have := r.isLt; omega⟩ else 0 := by
    intro r
    rw [Finset.sum_eq_single (0 : Fin 128)]
    · simp
    · intro c _ hc
      have : c.val ≠ 0 := fun h => hc (Fin.ext h)
      simp [this]
    · intro h; exact absurd (Finset.mem_univ _) h
  simp only [hrow]
  rw [← sum_blocks (n := 16) (b := 8)
    (fun r : Fin (16 * 8) => if r.val % 8 = 0 then g ⟨r.val / 8, by have := r.isLt; omega⟩ else 0)]
  refine Finset.sum_congr rfl ?_
  intro a _
  rw [Finset.sum_eq_single (0 : Fin 8)]
  · have h1 : (8 * a.val + (0 : Fin 8).val) % 8 = 0 := by simp
    have h2 : (8 * a.val + (0 : Fin 8).val) / 8 = a.val := by simp
    simp only [h1, if_true]
    congr 1
    exact Fin.ext h2
  · intro s _ hs
    have hs0 : s.val ≠ 0 := fun h => hs (Fin.ext h)
    have : ¬ ((8 * a.val + s.val) % 8 = 0) := by have := s.isLt; omega
    exact if_neg this
  · intro h; exact absurd (Finset.mem_univ _) h

end Cert.PairLoss.Sums
-- ==== Proof.RealLaws.lean ====
/-
  The pure mathematics of single-query attention computed tile by tile: how the extended-real operations act on real
  numbers, the algebra of a softmax whose scores are shifted by a running maximum, and sums over the hidden axis
  (sixteen heads of 64 columns, selected by a 0/1 head mask) and over the key rows (four tiles of 1024 rows).
-/
import Mathlib
import Idealize.ShloMosaic.PureOps.Ideal
import Idealize.ShloMosaic.PureOps.Ideal.Laws
import proofs.«137162_j44925357916178_2_alg».proof.Proof.Spec
import proofs.«137162_j44925357916178_2_alg».proof.Proof.LibTileSums

noncomputable section

open scoped BigOperators

namespace Cert.Attn.Laws

open Idealize.ShloMosaic

variable {ι : Type*}

/-! ### (i) Extended-real operations on real numbers -/

/-- A finite sum of reals, taken in the extended reals, is the real sum. -/
theorem coe_sum (s : Finset ι) (f : ι → ℝ) : ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- Division of a real by a nonzero real is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- The maximum of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a nonempty finite family of reals, folded from `⊥`, is a real. -/
theorem fold_max_coe {n : ℕ} (f : Fin n → ℝ) (hn : 0 < n) :
    ∃ μ : ℝ, (Finset.univ : Finset (Fin n)).fold max (⊥ : EReal) (fun r => ((f r : ℝ) : EReal)) = (μ : EReal) := by
  have h1 : (Finset.univ : Finset (Fin n)).fold max (⊥ : EReal) (fun r => ((f r : ℝ) : EReal)) < ⊤ :=
    (Finset.fold_max_lt _).mpr ⟨bot_lt_top, fun x _ => EReal.coe_lt_top _⟩
  have h2 : ⊥ < (Finset.univ : Finset (Fin n)).fold max (⊥ : EReal) (fun r => ((f r : ℝ) : EReal)) :=
    (Finset.lt_fold_max _).mpr (Or.inr ⟨⟨0, hn⟩, Finset.mem_univ _, EReal.bot_lt_coe _⟩)
  exact ⟨_, (EReal.coe_toReal h1.ne h2.ne').symm⟩

/-- `⊥` is neutral for the maximum. -/
theorem max_bot_coe (μ : ℝ) : max (⊥ : EReal) (μ : EReal) = (μ : EReal) :=
  max_eq_right bot_le

/-- The pattern of `0.125`. -/
theorem ofBits_eighth : Ideal.ofBits .f32 0x3E000000#32 = (((1 / 8 : ℝ)) : EReal) := by
  simp [Ideal.ofBits, Ideal.ieee, -EReal.coe_mul]; norm_num

/-- The pattern of `1.0`. -/
theorem ofBits_one : Ideal.ofBits .f32 0x3F800000#32 = ((1 : ℝ) : EReal) := by
  simp [Ideal.ofBits, Ideal.ieee, -EReal.coe_mul]; norm_num

/-- The pattern of `+0.0`. -/
theorem ofBits_zero : Ideal.ofBits .f32 0x00000000#32 = ((0 : ℝ) : EReal) := by
  simp [Ideal.ofBits, Ideal.ieee]

/-- The pattern of `-∞`. -/
theorem ofBits_neg_inf : Ideal.ofBits .f32 0xFF800000#32 = (⊥ : EReal) := by
  simp [Ideal.ofBits, Ideal.ieee]

/-- The pattern of `64.0`. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-- `exp ⊥ = 0` annihilates every extended real, the infinities included. -/
theorem exp_bot_mul (x : EReal) : Ideal.exp ⊥ * x = 0 := by
  rw [Ideal.exp_bot, zero_mul]

/-- The exponential of `⊥` less a real is zero. -/
theorem exp_bot_sub_coe (μ : ℝ) : Ideal.exp ((⊥ : EReal) - (μ : EReal)) = ((0 : ℝ) : EReal) := by
  rw [EReal.bot_sub, Ideal.exp_bot, EReal.coe_zero]

/-! ### (ii) The algebra of a shifted softmax -/

/-- Moving the subtracted number from `μ` to `μ'` multiplies each exponential by `exp (μ - μ')`. -/
theorem exp_shift (μ μ' x : ℝ) : Real.exp (μ - μ') * Real.exp (x - μ) = Real.exp (x - μ') := by
  rw [← Real.exp_add]
  congr 1
  ring

theorem sum_exp_shift (μ μ' : ℝ) (s : Finset ι) (x : ι → ℝ) :
    Real.exp (μ - μ') * ∑ i ∈ s, Real.exp (x i - μ) = ∑ i ∈ s, Real.exp (x i - μ') := by
  rw [Finset.mul_sum]
  exact Finset.sum_congr rfl fun i _ => exp_shift μ μ' (x i)

theorem sum_exp_mul_shift (μ μ' : ℝ) (s : Finset ι) (x v : ι → ℝ) :
    Real.exp (μ - μ') * ∑ i ∈ s, Real.exp (x i - μ) * v i = ∑ i ∈ s, Real.exp (x i - μ') * v i := by
  rw [Finset.mul_sum]
  refine Finset.sum_congr rfl fun i _ => ?_
  rw [← mul_assoc, exp_shift]

/-- A nonempty sum of exponentials is positive. -/
theorem sum_exp_pos [Fintype ι] [Nonempty ι] (x : ι → ℝ) : 0 < ∑ i, Real.exp (x i) :=
  Finset.sum_pos (fun i _ => Real.exp_pos _) Finset.univ_nonempty

/-- The softmax-weighted mean does not depend on the number subtracted from the scores. -/
theorem softmax_mean_shift [Fintype ι] [Nonempty ι] (μ : ℝ) (x v : ι → ℝ) :
    (∑ i, Real.exp (x i - μ) * v i) * (1 / ∑ i, Real.exp (x i - μ))
      = (∑ i, Real.exp (x i) * v i) / (∑ i, Real.exp (x i)) := by
  have h1 : ∑ i, Real.exp (x i - μ) * v i = Real.exp (-μ) * ∑ i, Real.exp (x i) * v i := by
    rw [Finset.mul_sum]
    refine Finset.sum_congr rfl fun i _ => ?_
    rw [sub_eq_add_neg, Real.exp_add]
    ring
  have h2 : ∑ i, Real.exp (x i - μ) = Real.exp (-μ) * ∑ i, Real.exp (x i) := by
    rw [Finset.mul_sum]
    refine Finset.sum_congr rfl fun i _ => ?_
    rw [sub_eq_add_neg, Real.exp_add]
    ring
  have hS : (∑ i, Real.exp (x i)) ≠ 0 := (sum_exp_pos x).ne'
  have hE : Real.exp (-μ) ≠ 0 := (Real.exp_pos (-μ)).ne'
  rw [h1, h2]
  field_simp

/-- The same with the weights normalised first. -/
theorem softmax_weights_shift [Fintype ι] [Nonempty ι] (μ : ℝ) (x v : ι → ℝ) :
    ∑ i, (Real.exp (x i - μ) / ∑ j, Real.exp (x j - μ)) * v i
      = (∑ i, Real.exp (x i) * v i) / (∑ i, Real.exp (x i)) := by
  rw [← softmax_mean_shift μ x v, Finset.sum_mul]
  refine Finset.sum_congr rfl fun i _ => ?_
  ring

/-! ### (iii) The head mask and the tile sums -/

/-- Summing against the 0/1 mask of head `h` keeps that head's 64 columns. -/
theorem sum_mask_cols (f : Fin 1024 → ℝ) (h : Fin 16) :
    ∑ c : Fin 1024, f c * (if c.val / 64 = h.val then (1 : ℝ) else 0) = ∑ d : Fin 64, f (Cert.Attn.hd h d) := by
  rw [← Cert.PairLoss.Sums.sum_blocks (n := 16) (b := 64)
    (fun c : Fin (16 * 64) => f c * (if c.val / 64 = h.val then (1 : ℝ) else 0))]
  rw [Finset.sum_eq_single h]
  · refine Finset.sum_congr rfl fun d _ => ?_
    have h2 : (64 * h.val + d.val) / 64 = h.val := by have := d.isLt; omega
    simp only [h2, if_true, mul_one]
    rfl
  · intro a _ ha
    refine Finset.sum_eq_zero fun d _ => ?_
    have h2 : ¬ ((64 * a.val + d.val) / 64 = h.val) := by
      intro e
      apply ha
      apply Fin.ext
      have := d.isLt
      omega
    simp only [h2, if_false, mul_zero]
  · intro hh
    exact absurd (Finset.mem_univ _) hh

/-- Summing a per-head quantity against column `c`'s mask keeps the head of `c`. -/
theorem sum_mask_heads (a : Fin 16 → ℝ) (c : Fin 1024) :
    ∑ h : Fin 16, a h * (if c.val / 64 = h.val then (1 : ℝ) else 0) = a (Cert.Attn.hOf c) := by
  rw [Finset.sum_eq_single (Cert.Attn.hOf c)]
  · have h2 : c.val / 64 = (Cert.Attn.hOf c).val := rfl
    rw [if_pos h2, mul_one]
  · intro h _ hh
    have h2 : ¬ (c.val / 64 = h.val) := fun e => hh (Fin.ext e.symm)
    rw [if_neg h2, mul_zero]
  · intro hh
    exact absurd (Finset.mem_univ _) hh

/-- The 4096 key rows as four tiles of 1024 rows. -/
theorem sum_rows (f : Fin 4096 → ℝ) : ∑ s : Fin 4096, f s = ∑ i : Fin 4, ∑ r : Fin 1024, f (Cert.Attn.row i r) := by
  rw [← Cert.PairLoss.Sums.sum_blocks (n := 4) (b := 1024) (fun s : Fin (4 * 1024) => f s)]
  rfl

/-- The head mask is real-valued. -/
theorem mask_coe (d : Fin 1024) (h : Fin 16) :
    (if d.val / 64 = h.val then (1 : EReal) else 0) = (((if d.val / 64 = h.val then (1 : ℝ) else 0) : ℝ) : EReal) := by
  split_ifs
  · exact EReal.coe_one.symm
  · exact EReal.coe_zero.symm

end Cert.Attn.Laws

end
-- ==== Proof.RefValue.lean ====
/-
  The reference program, read one operation at a time, computes single-query multi-head attention followed by a
  linear layer: its result at entry (b, j) is the real number out b j of the shared specification, whenever every
  entry of the five argument arrays is a real number.
-/
import proofs.«137162_j44925357916178_2_alg».proof.Proof.Gen.ReferenceIdeal.Read
import proofs.«137162_j44925357916178_2_alg».proof.Proof.Spec
import proofs.«137162_j44925357916178_2_alg».proof.Proof.RealLaws
import Idealize.ShloMosaic.PureOps.Reduce

noncomputable section

open scoped BigOperators

namespace Cert.ReferenceIdeal.RefValue

open Idealize.ShloMosaic Idealize.ShloMosaic.ValueIdx Cert.ReferenceIdeal Cert.ReferenceIdeal.Gen Cert.ReferenceIdeal.Read Cert.Attn

/-! ### The heads: the reshape into sixteen heads of 64 columns and the exchange of the two middle axes -/

/-- Entry (b, h, ·, d) of the query split into heads is column 64h+d of row b. -/
theorem heads_q (Q : (⟨S32x1024, .f32⟩ : BufTy).Contents (Elt Ideal)) (b : Fin 32) (h : Fin 16) (z : Fin 1) (d : Fin 64) :
    val_main_v1 (F := Ideal) Q (ix4 b h z d) = Q (ix2 b (hd h d)) := by
  rw [val_main_v1_apply, val_main_v0_apply]
  refine congrArg Q (funext fun a => Fin.ext ?_)
  have hz : z.val = 0 := by omega
  match a with
  | ⟨0, _⟩ => show (((b.val * 1 + z.val) * 16 + h.val) * 64 + d.val) / 1024 = b.val; omega
  | ⟨1, _⟩ => show (((b.val * 1 + z.val) * 16 + h.val) * 64 + d.val) % 1024 = 64 * h.val + d.val; omega

/-- Entry (b, h, s, d) of the keys split into heads is column 64h+d of key row s. -/
theorem heads_k (K : (⟨S32x4096x1024, .f32⟩ : BufTy).Contents (Elt Ideal)) (b : Fin 32) (h : Fin 16) (s : Fin 4096) (d : Fin 64) :
    val_main_v3 (F := Ideal) K (ix4 b h s d) = K (ix3 b s (hd h d)) := by
  rw [val_main_v3_apply, val_main_v2_apply]
  refine congrArg K (funext fun a => Fin.ext ?_)
  match a with
  | ⟨0, _⟩ => show (((b.val * 4096 + s.val) * 16 + h.val) * 64 + d.val) / 4194304 = b.val; omega
  | ⟨1, _⟩ => show (((b.val * 4096 + s.val) * 16 + h.val) * 64 + d.val) / 1024 % 4096 = s.val; omega
  | ⟨2, _⟩ => show (((b.val * 4096 + s.val) * 16 + h.val) * 64 + d.val) % 1024 = 64 * h.val + d.val; omega

/-- The same for the values. -/
theorem heads_v (V : (⟨S32x4096x1024, .f32⟩ : BufTy).Contents (Elt Ideal)) (b : Fin 32) (h : Fin 16) (s : Fin 4096) (d : Fin 64) :
    val_main_v5 (F := Ideal) V (ix4 b h s d) = V (ix3 b s (hd h d)) := by
  rw [val_main_v5_apply, val_main_v4_apply]
  refine congrArg V (funext fun a => Fin.ext ?_)
  match a with
  | ⟨0, _⟩ => show (((b.val * 4096 + s.val) * 16 + h.val) * 64 + d.val) / 4194304 = b.val; omega
  | ⟨1, _⟩ => show (((b.val * 4096 + s.val) * 16 + h.val) * 64 + d.val) / 1024 % 4096 = s.val; omega
  | ⟨2, _⟩ => show (((b.val * 4096 + s.val) * 16 + h.val) * 64 + d.val) % 1024 = 64 * h.val + d.val; omega

/-! ### The score: the head's dot product over its 64 columns, divided by the square root of 64 -/

/-- Entry (b, h, ·, s) of the scaled scores is the real score of key row s for head h of batch b. -/
theorem score_eq (Q : (⟨S32x1024, .f32⟩ : BufTy).Contents (Elt Ideal)) (K : (⟨S32x4096x1024, .f32⟩ : BufTy).Contents (Elt Ideal))
    (hQ : IsReal Q) (hK : IsReal K) (b : Fin 32) (h : Fin 16) (z : Fin 1) (s : Fin 4096) :
    val_main_v9 (F := Ideal) Q K (ix4 b h z s) = ((score (re2 Q) (re3 K) b h s : ℝ) : EReal) := by
  rw [val_main_v9_apply, val_main_v7_apply, val_main_v8_apply, val_main_v6_apply, val_main_cst_apply]
  have el : ∀ k : Fin 64, lidx_main_v7 (ix4 b h z s) k = ix4 b h z k := fun k => funext fun a => Fin.ext (by
    match a with | ⟨0, _⟩ => rfl | ⟨1, _⟩ => rfl | ⟨2, _⟩ => rfl | ⟨3, _⟩ => rfl)
  have er : ∀ k : Fin 64, ridx_main_v7 (ix4 b h z s) k = ix4 b h s k := fun k => funext fun a => Fin.ext (by
    match a with | ⟨0, _⟩ => rfl | ⟨1, _⟩ => rfl | ⟨2, _⟩ => rfl | ⟨3, _⟩ => rfl)
  have hsum : (∑ k : Fin 64, val_main_v1 (F := Ideal) Q (lidx_main_v7 (ix4 b h z s) k) * val_main_v3 (F := Ideal) K (ridx_main_v7 (ix4 b h z s) k))
      = ((∑ k : Fin 64, re2 Q b (hd h k) * re3 K b s (hd h k) : ℝ) : EReal) := by
    rw [← Laws.coe_sum]
    refine Finset.sum_congr rfl fun k _ => ?_
    rw [el, er, heads_q, heads_k, hQ.re2, hK.re3, EReal.coe_mul]
  rw [hsum, Ideal.hostDivf_def, Ideal.hostUnary_sqrt_def, Ideal.ofBits_def, Laws.ofBits_64, Laws.sqrt_64,
    Laws.div_coe_coe _ (by norm_num : (8 : ℝ) ≠ 0)]
  rfl

/-- Every entry of the scaled scores is a real number. -/
theorem score_isReal (Q : (⟨S32x1024, .f32⟩ : BufTy).Contents (Elt Ideal)) (K : (⟨S32x4096x1024, .f32⟩ : BufTy).Contents (Elt Ideal))
    (hQ : IsReal Q) (hK : IsReal K) : IsReal (S := S32x16x1x4096) (val_main_v9 (F := Ideal) Q K) := fun i => by
  rw [eq_ix4 i]
  exact ⟨_, score_eq Q K hQ hK _ _ _ _⟩

/-! ### The row maximum: some real number -/

/-- The maximum of a head's scores over the key rows, from −∞, is a real number. -/
theorem rowmax_real (Q : (⟨S32x1024, .f32⟩ : BufTy).Contents (Elt Ideal)) (K : (⟨S32x4096x1024, .f32⟩ : BufTy).Contents (Elt Ideal))
    (hQ : IsReal Q) (hK : IsReal K) (j : S32x16x1.Idx) :
    ∃ μ : ℝ, val_main_v12 (F := Ideal) Q K j = (μ : EReal) := by
  have hR : S32x16x1x4096.Reduces [3] S32x16x1 := by decide
  have hfold : val_main_v10 (F := Ideal) Q K j
      = (Finset.univ : Finset (Fin (S32x16x1x4096.size 3))).fold max (⊥ : EReal)
          (fun r => (((val_main_v9 (F := Ideal) Q K (hR.lift j r)).toReal : ℝ) : EReal)) := by
    unfold val_main_v10
    rw [Host.reduce_eq_fold_single FloatOps.maximumf _ _ reducesTo_S32x16x1x4096_S32x16x1_d3 hR h_S_, val_main_cst_0_apply,
      Ideal.ofBits_def, Laws.ofBits_neg_inf]
    refine congrArg (fun f => Finset.fold max (⊥ : EReal) f (Finset.univ : Finset (Fin (S32x16x1x4096.size 3)))) (funext fun r => ?_)
    exact (score_isReal Q K hQ hK).coe_toReal _
  obtain ⟨μ, hμ⟩ := Laws.fold_max_coe (n := S32x16x1x4096.size 3) (fun r => (val_main_v9 (F := Ideal) Q K (hR.lift j r)).toReal)
    (show 0 < 4096 by norm_num)
  refine ⟨μ, ?_⟩
  rw [val_main_v12_apply, val_main_v11_apply, val_main_cst_1_apply, hfold, hμ, Ideal.maximumf_def, Ideal.ofBits_def,
    Laws.ofBits_neg_inf, Laws.max_bot_coe]

/-! ### The softmax with the row maximum μ subtracted -/

/-- The exponentials: entry (b, h, ·, s) is exp (score − μ), where μ is the row maximum. -/
theorem expo_eq (Q : (⟨S32x1024, .f32⟩ : BufTy).Contents (Elt Ideal)) (K : (⟨S32x4096x1024, .f32⟩ : BufTy).Contents (Elt Ideal))
    (hQ : IsReal Q) (hK : IsReal K) (b : Fin 32) (h : Fin 16) (μ : ℝ)
    (hμ : val_main_v12 (F := Ideal) Q K (ix3 b h (0 : Fin 1)) = (μ : EReal)) (z : Fin 1) (s : Fin 4096) :
    val_main_v16 (F := Ideal) Q K (ix4 b h z s) = ((Real.exp (score (re2 Q) (re3 K) b h s - μ) : ℝ) : EReal) := by
  have e : idx_main_v13 (idx_main_v14 (ix4 b h z s)) = ix3 b h (0 : Fin 1) := funext fun a => Fin.ext (by
    match a with | ⟨0, _⟩ => rfl | ⟨1, _⟩ => rfl | ⟨2, _⟩ => rfl)
  rw [val_main_v16_apply, val_main_v15_apply, val_main_v14_apply, val_main_v13_apply, e, hμ, score_eq Q K hQ hK,
    Ideal.subf_def, Ideal.hostUnary_exp_def, ← EReal.coe_sub, Ideal.exp_coe]

/-- The denominator: the sum of the exponentials over the key rows. -/
theorem denom_eq (Q : (⟨S32x1024, .f32⟩ : BufTy).Contents (Elt Ideal)) (K : (⟨S32x4096x1024, .f32⟩ : BufTy).Contents (Elt Ideal))
    (hQ : IsReal Q) (hK : IsReal K) (b : Fin 32) (h : Fin 16) (μ : ℝ)
    (hμ : val_main_v12 (F := Ideal) Q K (ix3 b h (0 : Fin 1)) = (μ : EReal)) (z : Fin 1) :
    val_main_v17 (F := Ideal) Q K (ix3 b h z)
      = ((∑ s : Fin 4096, Real.exp (score (re2 Q) (re3 K) b h s - μ) : ℝ) : EReal) := by
  have e : ∀ k : Fin 4096, idx_main_v17 (ix3 b h z) k = ix4 b h z k := fun k => funext fun a => Fin.ext (by
    match a with | ⟨0, _⟩ => rfl | ⟨1, _⟩ => rfl | ⟨2, _⟩ => rfl | ⟨3, _⟩ => rfl)
  have hsum : (∑ k : Fin 4096, val_main_v16 (F := Ideal) Q K (idx_main_v17 (ix3 b h z) k))
      = ((∑ s : Fin 4096, Real.exp (score (re2 Q) (re3 K) b h s - μ) : ℝ) : EReal) := by
    rw [← Laws.coe_sum]
    refine Finset.sum_congr rfl fun k _ => ?_
    rw [e, expo_eq Q K hQ hK b h μ hμ]
  rw [val_main_v17_apply, hsum, val_main_cst_2_apply, Ideal.ofBits_def, Laws.ofBits_zero, ← EReal.coe_add, zero_add]

/-- The weights: each exponential divided by the denominator. -/
theorem weight_eq (Q : (⟨S32x1024, .f32⟩ : BufTy).Contents (Elt Ideal)) (K : (⟨S32x4096x1024, .f32⟩ : BufTy).Contents (Elt Ideal))
    (hQ : IsReal Q) (hK : IsReal K) (b : Fin 32) (h : Fin 16) (μ : ℝ)
    (hμ : val_main_v12 (F := Ideal) Q K (ix3 b h (0 : Fin 1)) = (μ : EReal)) (z : Fin 1) (s : Fin 4096) :
    val_main_v20 (F := Ideal) Q K (ix4 b h z s)
      = ((Real.exp (score (re2 Q) (re3 K) b h s - μ) / ∑ t : Fin 4096, Real.exp (score (re2 Q) (re3 K) b h t - μ) : ℝ) : EReal) := by
  have e : idx_main_v18 (idx_main_v19 (ix4 b h z s)) = ix3 b h (0 : Fin 1) := funext fun a => Fin.ext (by
    match a with | ⟨0, _⟩ => rfl | ⟨1, _⟩ => rfl | ⟨2, _⟩ => rfl)
  rw [val_main_v20_apply, val_main_v19_apply, val_main_v18_apply, e, denom_eq Q K hQ hK b h μ hμ,
    expo_eq Q K hQ hK b h μ hμ, Ideal.hostDivf_def,
    Laws.div_coe_coe _ (ne_of_gt (Laws.sum_exp_pos fun t : Fin 4096 => score (re2 Q) (re3 K) b h t - μ))]

/-! ### The context: the softmax-weighted mean of the value rows -/

/-- Entry (b, h, ·, d) of the weighted sum of the values is the context at column 64h+d. -/
theorem ctx_head (Q : (⟨S32x1024, .f32⟩ : BufTy).Contents (Elt Ideal)) (K V : (⟨S32x4096x1024, .f32⟩ : BufTy).Contents (Elt Ideal))
    (hQ : IsReal Q) (hK : IsReal K) (hV : IsReal V) (b : Fin 32) (h : Fin 16) (z : Fin 1) (d : Fin 64) :
    val_main_v21 (F := Ideal) Q K V (ix4 b h z d) = ((ctx (re2 Q) (re3 K) (re3 V) b (hd h d) : ℝ) : EReal) := by
  obtain ⟨μ, hμ⟩ := rowmax_real Q K hQ hK (ix3 b h (0 : Fin 1))
  have el : ∀ k : Fin 4096, lidx_main_v21 (ix4 b h z d) k = ix4 b h z k := fun k => funext fun a => Fin.ext (by
    match a with | ⟨0, _⟩ => rfl | ⟨1, _⟩ => rfl | ⟨2, _⟩ => rfl | ⟨3, _⟩ => rfl)
  have er : ∀ k : Fin 4096, ridx_main_v21 (ix4 b h z d) k = ix4 b h k d := fun k => funext fun a => Fin.ext (by
    match a with | ⟨0, _⟩ => rfl | ⟨1, _⟩ => rfl | ⟨2, _⟩ => rfl | ⟨3, _⟩ => rfl)
  have hsum : (∑ k : Fin 4096, val_main_v20 (F := Ideal) Q K (lidx_main_v21 (ix4 b h z d) k) * val_main_v5 (F := Ideal) V (ridx_main_v21 (ix4 b h z d) k))
      = ((∑ s : Fin 4096, (Real.exp (score (re2 Q) (re3 K) b h s - μ) / ∑ t : Fin 4096, Real.exp (score (re2 Q) (re3 K) b h t - μ))
          * re3 V b s (hd h d) : ℝ) : EReal) := by
    rw [← Laws.coe_sum]
    refine Finset.sum_congr rfl fun k _ => ?_
    rw [el, er, weight_eq Q K hQ hK b h μ hμ, heads_v, hV.re3, EReal.coe_mul]
  rw [val_main_v21_apply, hsum,
    Laws.softmax_weights_shift μ (fun s : Fin 4096 => score (re2 Q) (re3 K) b h s) (fun s : Fin 4096 => re3 V b s (hd h d))]
  unfold ctx
  rw [hOf_hd]

/-- Back through the exchange of axes and the reshape: entry (b, c) is the context at column c. -/
theorem ctx_eq (Q : (⟨S32x1024, .f32⟩ : BufTy).Contents (Elt Ideal)) (K V : (⟨S32x4096x1024, .f32⟩ : BufTy).Contents (Elt Ideal))
    (hQ : IsReal Q) (hK : IsReal K) (hV : IsReal V) (b : Fin 32) (c : Fin 1024) :
    val_main_v23 (F := Ideal) Q K V (ix2 b c) = ((ctx (re2 Q) (re3 K) (re3 V) b c : ℝ) : EReal) := by
  have e : idx_main_v22 (idx_main_v23 (ix2 b c)) = ix4 b (hOf c) (0 : Fin 1) (dOf c) := funext fun a => Fin.ext (by
    match a with
    | ⟨0, _⟩ => show (b.val * 1024 + c.val) / 1024 = b.val; omega
    | ⟨1, _⟩ => show (b.val * 1024 + c.val) / 64 % 16 = c.val / 64; omega
    | ⟨2, _⟩ => rfl
    | ⟨3, _⟩ => show (b.val * 1024 + c.val) % 64 = c.val % 64; omega)
  rw [val_main_v23_apply, val_main_v22_apply, e, ctx_head Q K V hQ hK hV, hd_hOf_dOf]

/-! ### The linear layer and the bias -/

/-- Entry (b, j) of the product with the transposed weight. -/
theorem linear_eq (Q : (⟨S32x1024, .f32⟩ : BufTy).Contents (Elt Ideal)) (K V : (⟨S32x4096x1024, .f32⟩ : BufTy).Contents (Elt Ideal))
    (W : (⟨S1024x1024, .f32⟩ : BufTy).Contents (Elt Ideal))
    (hQ : IsReal Q) (hK : IsReal K) (hV : IsReal V) (hW : IsReal W) (b : Fin 32) (j : Fin 1024) :
    val_main_v25 (F := Ideal) Q K V W (ix2 b j)
      = ((∑ c : Fin 1024, ctx (re2 Q) (re3 K) (re3 V) b c * re2 W j c : ℝ) : EReal) := by
  have el : ∀ k : Fin 1024, lidx_main_v25 (ix2 b j) k = ix2 b k := fun k => funext fun a => Fin.ext (by
    match a with | ⟨0, _⟩ => rfl | ⟨1, _⟩ => rfl)
  have er : ∀ k : Fin 1024, idx_main_v24 (ridx_main_v25 (ix2 b j) k) = ix2 j k := fun k => funext fun a => Fin.ext (by
    match a with | ⟨0, _⟩ => rfl | ⟨1, _⟩ => rfl)
  rw [val_main_v25_apply, ← Laws.coe_sum]
  refine Finset.sum_congr rfl fun k _ => ?_
  rw [el, val_main_v24_apply, er, ctx_eq Q K V hQ hK hV, hW.re2, EReal.coe_mul]

/-- THE REFERENCE IS G: entry (b, j) of the reference program's result. -/
theorem ref_value (Q : (⟨S32x1024, .f32⟩ : BufTy).Contents (Elt Ideal)) (K V : (⟨S32x4096x1024, .f32⟩ : BufTy).Contents (Elt Ideal))
    (W : (⟨S1024x1024, .f32⟩ : BufTy).Contents (Elt Ideal)) (B : (⟨S1024, .f32⟩ : BufTy).Contents (Elt Ideal))
    (hQ : IsReal Q) (hK : IsReal K) (hV : IsReal V) (hW : IsReal W) (hB : IsReal B) (b : Fin 32) (j : Fin 1024) :
    val_main_v28 (F := Ideal) Q K V W B (ix2 b j) = G Q K V W B b j := by
  have e : idx_main_v26 (idx_main_v27 (ix2 b j)) = ix1 j := funext fun a => Fin.ext (by
    match a with | ⟨0, _⟩ => rfl)
  rw [val_main_v28_apply, val_main_v27_apply, val_main_v26_apply, e, linear_eq Q K V W hQ hK hV hW, hB.re1,
    Ideal.addf_def, ← EReal.coe_add]
  rfl

end Cert.ReferenceIdeal.RefValue

end
-- ==== Proof.Pieces.lean ====
/-
  What each control case of the kernel body leaves, as payload terms (any float values `F`).

  The body keeps three carried scratch operands — the running maximum (`arg9`, [1,16]), the running denominator
  (`arg10`, [1,16]) and the running numerator (`arg11`, [1,1024]) — and one output block (window 6, [1,1,1024]).
  Three control cases: A (the first key/value tile: the scratches are first reset, to the constant blocks `k0_pay5`,
  `k0_pay6`, `k0_pay7`, and then read back), B (a middle tile), C (the last tile: the output block is also stored,
  from the scratches just written).

  Every store of the body covers its whole buffer through the zero origin, so what a buffer ends holding is the
  payload of its last store, and a load through the zero origin of a whole buffer reads the buffer's contents
  (or, after a covering store, that store's payload).
-/
import proofs.«137162_j44925357916178_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The literal origin of a rank-2 buffer is the zero origin. -/
theorem hz2 : (![0, 0] : Fin 2 → Nat) = fun _ => 0 := funext fun a => by fin_cases a <;> rfl
/-- The literal origin of a rank-3 buffer is the zero origin. -/
theorem hz3 : (![0, 0, 0] : Fin 3 → Nat) = fun _ => 0 := funext fun a => by fin_cases a <;> rfl

/-! ## Case A: the first tile (the scratches are reset, then updated from the reset values) -/

/-- Case A leaves in `arg9` the payload of its last store: the maximum update `k0_pay11` of the two input blocks, taken from the reset block `k0_pay5` (the load of `arg9` follows its reset store). -/
theorem sout_A_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : cond0_0 i) (hc1 : ¬cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay3 (k0_pay11 x0 x2 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x16) hz2]
  simp only [View.readCov_unit_zero (S := S1x16) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-- Case A leaves in `arg10` the payload of its last store: the denominator update `k0_pay14`, taken from the reset blocks `k0_pay5` and `k0_pay6` (the loads of `arg9` and `arg10` follow their reset stores). -/
theorem sout_A_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : cond0_0 i) (hc1 : ¬cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay1 (k0_pay14 x0 x2 k0_pay5 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x16) hz2]
  simp only [View.readCov_unit_zero (S := S1x16) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-- Case A leaves in `arg11` the payload of its last store: the numerator update `k0_pay2`, taken from the reset blocks `k0_pay5` and `k0_pay7` (the loads of `arg9` and `arg11` follow their reset stores). -/
theorem sout_A_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : cond0_0 i) (hc1 : ¬cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) :
    sout0_A_2 c i arg2 harg2 arg3 harg3 arg4 harg4 arg5 harg5 arg6 harg6 arg7 harg7 arg8 harg8 arg9 harg9 arg10 harg10 arg11 harg11 hc0 hc1 x0 x1 x2 x3 x4 x5 = k0_pay2 (k0_pay8 x1) (k0_pay9 x3) (k0_pay12 x0 x2 k0_pay5 k0_pay5) (k0_pay13 x0 x2 k0_pay5) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1024) hz2]
  simp only [View.readCov_unit_zero (S := S1x16) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-! ## Case B: a middle tile (the scratches are updated from the contents found) -/

/-- Case B leaves in `arg9` the payload of its last store: the maximum update `k0_pay11` of the two input blocks, taken from the contents `xs0` found in `arg9`. -/
theorem sout_B_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : ¬cond0_0 i) (hc1 : ¬cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) (xs0 : Vec F S1x16 .f32) (xs1 : Vec F S1x16 .f32) (xs2 : Vec F S1x1024 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay3 (k0_pay11 x0 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-- Case B leaves in `arg10` the payload of its last store: the denominator update `k0_pay14`, taken from the contents `xs0`, `xs1` found in `arg9`, `arg10`. -/
theorem sout_B_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : ¬cond0_0 i) (hc1 : ¬cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) (xs0 : Vec F S1x16 .f32) (xs1 : Vec F S1x16 .f32) (xs2 : Vec F S1x1024 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay1 (k0_pay14 x0 x2 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-- Case B leaves in `arg11` the payload of its last store: the numerator update `k0_pay2`, taken from the contents `xs0`, `xs2` found in `arg9`, `arg11`. -/
theorem sout_B_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : ¬cond0_0 i) (hc1 : ¬cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) (xs0 : Vec F S1x16 .f32) (xs1 : Vec F S1x16 .f32) (xs2 : Vec F S1x1024 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay2 (k0_pay8 x1) (k0_pay9 x3) (k0_pay12 x0 x2 xs0 xs0) (k0_pay13 x0 x2 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-! ## Case C: the last tile (the same three updates, then the output block from the updated scratches) -/

/-- Case C leaves in `arg9` the payload of its last store: the maximum update `k0_pay11` of the two input blocks, taken from the contents `xs0` found in `arg9`. -/
theorem sout_C_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : ¬cond0_0 i) (hc1 : cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) (xs0 : Vec F S1x16 .f32) (xs1 : Vec F S1x16 .f32) (xs2 : Vec F S1x1024 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay3 (k0_pay11 x0 x2 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-- Case C leaves in `arg10` the payload of its last store: the denominator update `k0_pay14`, taken from the contents `xs0`, `xs1` found in `arg9`, `arg10`. -/
theorem sout_C_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : ¬cond0_0 i) (hc1 : cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) (xs0 : Vec F S1x16 .f32) (xs1 : Vec F S1x16 .f32) (xs2 : Vec F S1x1024 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay1 (k0_pay14 x0 x2 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-- Case C leaves in `arg11` the payload of its last store: the numerator update `k0_pay2`, taken from the contents `xs0`, `xs2` found in `arg9`, `arg11`. -/
theorem sout_C_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : ¬cond0_0 i) (hc1 : cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) (xs0 : Vec F S1x16 .f32) (xs1 : Vec F S1x16 .f32) (xs2 : Vec F S1x1024 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay2 (k0_pay8 x1) (k0_pay9 x3) (k0_pay12 x0 x2 xs0 xs0) (k0_pay13 x0 x2 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

/-- Case C leaves in the output block the payload `k0_pay4` of its one store, at what case C leaves in `arg10`
    and `arg11`: the body reloads these two scratches after storing them, and reads the fifth and sixth input
    blocks as they are. -/
theorem out_C_6 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1024 .f32) (harg11 : arg11.IsWhole) (hc0 : ¬cond0_0 i) (hc1 : cond0_1 i)
    (x0 : Vec F S1x1024x1024 .f32) (x1 : Vec F S1x1024x1024 .f32) (x2 : Vec F S1x1024x16 .f32) (x3 : Vec F S16x1024 .f32) (x4 : Vec F S1024x1024 .f32) (x5 : Vec F S1x1024 .f32) (xs0 : Vec F S1x16 .f32) (xs1 : Vec F S1x16 .f32) (xs2 : Vec F S1x1024 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay4 (k0_pay9 x3) (sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2) (sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2) x4 x5 := by
  rw [sout_C_1, sout_C_2]
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz3]
  simp only [View.readCov_unit_zero (S := S1x16) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S1x1024x1024) hz3, View.ld_unit_zero (S := S1x1024x16) hz3, View.ld_unit_zero (S := S16x1024) hz2, View.ld_unit_zero (S := S1024x1024) hz2, View.ld_unit_zero (S := S1x1024) hz2, View.ld_unit_zero (S := S1x16) hz2, View.ld_unit_zero (S := S1x1x1024) hz3]

end Cert.KernelIdeal.Pieces

end
-- ==== Proof.Blocks.lean ====
/-
  Each input window's block at a grid point, READ AT AN INDEX, as the array the region finds at the right coordinates.

  The grid is `32 × 4`: point `t` has batch `t / 4` and key-value tile `t % 4`. A block's coordinate along an axis is
  always (the window's block index along that axis) × (the block's extent) + (the coordinate inside the block). The
  block indices of the six input windows are decided once over the `128` grid points:
    • windows 0 and 1 (the `[32, 4096, 1024]` arrays, blocks `[1, 1024, 1024]`): indices `(t / 4, t % 4, 0)`;
    • window 2 (the `[32, 1024, 16]` array, blocks `[1, 1024, 16]`): indices `(t / 4, 0, 0)`;
    • windows 3, 4 and 5 (whole arrays `[16, 1024]`, `[1024, 1024]`, `[1, 1024]`): indices all `0`.
  So the block of window 0 at `(0, r, cc)` is the array at `(t / 4, 1024 · (t % 4) + r, cc)`, and so on.
-/
import proofs.«137162_j44925357916178_2_alg».proof.Proof.Gen.KernelIdeal.Frame
import Idealize.ShloMosaic.Lib.ValueIdx

noncomputable section

namespace Cert.KernelIdeal.Blocks

open Idealize.ShloMosaic Idealize.ShloMosaic.ValueIdx Idealize.ShloMosaic.TcCoe Cert.KernelIdeal Cert.KernelIdeal.Gen

variable {F : FTy → Type} [FloatOps F]
variable (m : (ℓ : Loc nD τ sig) → Buf (Elt F) ℓ)

/-- The six input windows' block indices at every grid point, decided over the `128` points. -/
theorem idx_facts : ∀ t : Fin cfg0.N,
    win0_0.index t 0 = t.val / 4 ∧ win0_0.index t 1 = t.val % 4 ∧ win0_0.index t 2 = 0 ∧
    win0_1.index t 0 = t.val / 4 ∧ win0_1.index t 1 = t.val % 4 ∧ win0_1.index t 2 = 0 ∧
    win0_2.index t 0 = t.val / 4 ∧ win0_2.index t 1 = 0 ∧ win0_2.index t 2 = 0 ∧
    win0_3.index t 0 = 0 ∧ win0_3.index t 1 = 0 ∧
    win0_4.index t 0 = 0 ∧ win0_4.index t 1 = 0 ∧
    win0_5.index t 0 = 0 ∧ win0_5.index t 1 = 0 :=
  (by decide +kernel : ∀ t : Fin grid0.N, _)

/-- Window 0's block at point `t` reads, at `(0, r, cc)`, the first `[32, 4096, 1024]` array at batch `t / 4`, row
    `1024 · (t % 4) + r`, column `cc`. -/
theorem blk0 (c : Dev nD) (t : Fin cfg0.N) (bt : Fin 32) (hb : bt.val = t.val / 4) (r cc : Fin 1024) (s : Fin 4096)
    (hs : s.val = 1024 * (t.val % 4) + r.val) :
    (iblk m c 0 t : Vec F S1x1024x1024 .f32) (ix3 (0 : Fin 1) r cc)
      = (V m c main_arg1 : S32x4096x1024.Idx → Elt F .f32) (ix3 bt s cc) := by
  obtain ⟨h0, h1, h2, -⟩ := idx_facts t
  unfold iblk
  rw [View.read_apply]
  show V m c main_arg1 _ = V m c main_arg1 _
  congr 1
  funext a
  apply Fin.ext
  match a with
  | ⟨0, _⟩ => show win0_0.index t 0 * 1 + 1 * 0 = bt.val; rw [h0, hb]; omega
  | ⟨1, _⟩ => show win0_0.index t 1 * 1024 + 1 * r.val = s.val; rw [h1, hs]; omega
  | ⟨2, _⟩ => show win0_0.index t 2 * 1024 + 1 * cc.val = cc.val; rw [h2]; omega

/-- Window 1's block at point `t` reads, at `(0, r, cc)`, the second `[32, 4096, 1024]` array at batch `t / 4`, row
    `1024 · (t % 4) + r`, column `cc`. -/
theorem blk1 (c : Dev nD) (t : Fin cfg0.N) (bt : Fin 32) (hb : bt.val = t.val / 4) (r cc : Fin 1024) (s : Fin 4096)
    (hs : s.val = 1024 * (t.val % 4) + r.val) :
    (iblk m c 1 t : Vec F S1x1024x1024 .f32) (ix3 (0 : Fin 1) r cc)
      = (V m c main_arg2 : S32x4096x1024.Idx → Elt F .f32) (ix3 bt s cc) := by
  obtain ⟨-, -, -, h0, h1, h2, -⟩ := idx_facts t
  unfold iblk
  rw [View.read_apply]
  show V m c main_arg2 _ = V m c main_arg2 _
  congr 1
  funext a
  apply Fin.ext
  match a with
  | ⟨0, _⟩ => show win0_1.index t 0 * 1 + 1 * 0 = bt.val; rw [h0, hb]; omega
  | ⟨1, _⟩ => show win0_1.index t 1 * 1024 + 1 * r.val = s.val; rw [h1, hs]; omega
  | ⟨2, _⟩ => show win0_1.index t 2 * 1024 + 1 * cc.val = cc.val; rw [h2]; omega

/-- Window 2's block at point `t` reads, at `(0, d, h)`, the `[32, 1024, 16]` array at batch `t / 4`, `(d, h)`. -/
theorem blk2 (c : Dev nD) (t : Fin cfg0.N) (bt : Fin 32) (hb : bt.val = t.val / 4) (d : Fin 1024) (h : Fin 16) :
    (iblk m c 2 t : Vec F S1x1024x16 .f32) (ix3 (0 : Fin 1) d h)
      = (V m c main_v14 : S32x1024x16.Idx → Elt F .f32) (ix3 bt d h) := by
  obtain ⟨-, -, -, -, -, -, h0, h1, h2, -⟩ := idx_facts t
  unfold iblk
  rw [View.read_apply]
  show V m c main_v14 _ = V m c main_v14 _
  congr 1
  funext a
  apply Fin.ext
  match a with
  | ⟨0, _⟩ => show win0_2.index t 0 * 1 + 1 * 0 = bt.val; rw [h0, hb]; omega
  | ⟨1, _⟩ => show win0_2.index t 1 * 1024 + 1 * d.val = d.val; rw [h1]; omega
  | ⟨2, _⟩ => show win0_2.index t 2 * 16 + 1 * h.val = h.val; rw [h2]; omega

/-- Window 3's block is the whole `[16, 1024]` array at every point. -/
theorem blk3 (c : Dev nD) (t : Fin cfg0.N) (h : Fin 16) (d : Fin 1024) :
    (iblk m c 3 t : Vec F S16x1024 .f32) (ix2 h d) = (V m c main_v9 : S16x1024.Idx → Elt F .f32) (ix2 h d) := by
  obtain ⟨-, -, -, -, -, -, -, -, -, h0, h1, -⟩ := idx_facts t
  unfold iblk
  rw [View.read_apply]
  show V m c main_v9 _ = V m c main_v9 _
  congr 1
  funext a
  apply Fin.ext
  match a with
  | ⟨0, _⟩ => show win0_3.index t 0 * 16 + 1 * h.val = h.val; rw [h0]; omega
  | ⟨1, _⟩ => show win0_3.index t 1 * 1024 + 1 * d.val = d.val; rw [h1]; omega

/-- Window 4's block is the whole `[1024, 1024]` array at every point. -/
theorem blk4 (c : Dev nD) (t : Fin cfg0.N) (d j : Fin 1024) :
    (iblk m c 4 t : Vec F S1024x1024 .f32) (ix2 d j) = (V m c main_v15 : S1024x1024.Idx → Elt F .f32) (ix2 d j) := by
  obtain ⟨-, -, -, -, -, -, -, -, -, -, -, h0, h1, -⟩ := idx_facts t
  unfold iblk
  rw [View.read_apply]
  show V m c main_v15 _ = V m c main_v15 _
  congr 1
  funext a
  apply Fin.ext
  match a with
  | ⟨0, _⟩ => show win0_4.index t 0 * 1024 + 1 * d.val = d.val; rw [h0]; omega
  | ⟨1, _⟩ => show win0_4.index t 1 * 1024 + 1 * j.val = j.val; rw [h1]; omega

/-- Window 5's block is the whole `[1, 1024]` array at every point. -/
theorem blk5 (c : Dev nD) (t : Fin cfg0.N) (j : Fin 1024) :
    (iblk m c 5 t : Vec F S1x1024 .f32) (ix2 (0 : Fin 1) j)
      = (V m c main_v16 : S1x1024.Idx → Elt F .f32) (ix2 (0 : Fin 1) j) := by
  obtain ⟨-, -, -, -, -, -, -, -, -, -, -, -, -, h0, h1⟩ := idx_facts t
  unfold iblk
  rw [View.read_apply]
  show V m c main_v16 _ = V m c main_v16 _
  congr 1
  funext a
  apply Fin.ext
  match a with
  | ⟨0, _⟩ => show win0_5.index t 0 * 1 + 1 * 0 = 0; rw [h0]
  | ⟨1, _⟩ => show win0_5.index t 1 * 1024 + 1 * j.val = j.val; rw [h1]; omega

end Cert.KernelIdeal.Blocks

end
-- ==== Proof.PrefixRead.lean ====
/-
  The arrays the kernel region finds: what the host operations before the region leave, read at an index.

  Before the region the program computes, from its inputs x : [32, 1024], W : [1024, 1024] and bias : [1024],
    • a 0/1 mask  E[d, h] = 1 if ⌊d / 64⌋ = h else 0  (d < 1024, h < 16): the vector 0 … 1023 floor-divided by 64
      (the quotient rounded toward zero, less one when the operands' signs differ and the remainder is not zero —
      on 0 … 1023 that is d / 64), broadcast along the columns, compared for equality with the vector 0 … 15
      broadcast along the rows, and the one-bit answer converted to a real (the bit 1 is 1, the bit 0 is 0);
    • its transpose  Eᵀ[h, d] = E[d, h];
    • the product  Q[b, d, h] = x[b, d] · E[d, h]  (both factors broadcast to [32, 1024, 16]);
    • the transpose  Wᵀ[d, j] = W[j, d];
    • the bias as a row  [1, 1024].
  Each is stated at an index given by its coordinates. The integer facts are decided over the finitely many values.
-/
import proofs.«137162_j44925357916178_2_alg».proof.Proof.Gen.KernelIdeal.Frame
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PrefixRead

open Idealize.ShloMosaic Idealize.ShloMosaic.TcCoe Idealize.ShloMosaic.ValueIdx Cert.KernelIdeal Cert.KernelIdeal.Gen
open Idealize.ShloMosaic.StableHlo

variable (m : (ℓ : Loc nD τ sig) → Buf (Elt Ideal) ℓ) (c : Dev nD)

/-- The sign of a word: 0, -1 or 1. -/
def sgn (x : BitVec 32) : BitVec 32 := if x = 0 then 0 else if x.msb then -1 else 1

/-- Floor division by 64 as the program computes it: the quotient rounded toward zero, less one when the signs
    differ and the remainder is not zero. -/
def fdiv64 (x : BitVec 32) : BitVec 32 :=
  Scalar.select
    (IntOp.andi (IntOp.cmpi .ne (sgn x) (sgn 64#32)) (IntOp.cmpi .ne (IntOp.remsi .host x 64#32) 0#32))
    (IntOp.subi (IntOp.divsi .host x 64#32) 1#32)
    (IntOp.divsi .host x 64#32)

theorem fdiv64_ofNat : ∀ d : Fin 1024, fdiv64 (BitVec.ofNat 32 d.val) = BitVec.ofNat 32 (d.val / 64) := by
  decide +kernel

theorem cmpi_eq_ofNat : ∀ (a h : Fin 16), IntOp.cmpi .eq (BitVec.ofNat 32 a.val) (BitVec.ofNat 32 h.val) = if a.val = h.val then 1#1 else 0#1 := by
  decide +kernel

/-- The floor-divide function's operations composed, over the vector 0, 1, …, 1023 and the constant 64. -/
def fdivVec : IVec S1024 32 :=
  select
    (andi (cmpi .ne (signi (iotaInDim S1024 32 0)) (broadcastInDim S1024 ![] bcast_S_S1024 (signi (constantI S_ 32 64#32))))
          (cmpi .ne (Host.remsi (iotaInDim S1024 32 0) (broadcastInDim S1024 ![] bcast_S_S1024 (constantI S_ 32 64#32)))
                    (broadcastInDim S1024 ![] bcast_S_S1024 (constantI S_ 32 0#32))))
    (subi (Host.divsi (iotaInDim S1024 32 0) (broadcastInDim S1024 ![] bcast_S_S1024 (constantI S_ 32 64#32)))
          (broadcastInDim S1024 ![] bcast_S_S1024 (constantI S_ 32 1#32)))
    (Host.divsi (iotaInDim S1024 32 0) (broadcastInDim S1024 ![] bcast_S_S1024 (constantI S_ 32 64#32)))

/-- The comparison of the floor-divided row number with the column number, as a real: the array of the mask. -/
def maskVec : FVec Ideal S1024x16 .f32 :=
  uitofp (F := Ideal) .f32
    (cmpi .eq
      (broadcastInDim S1024x16 ![0, 1] bcast_S1024x1_S1024x16_0_1 (broadcastInDim S1024x1 ![0] bcast_S1024_S1024x1_0 fdivVec))
      (broadcastInDim S1024x16 ![0, 1] bcast_S1x16_S1024x16_0_1 (broadcastInDim S1x16 ![1] bcast_S16_S1x16_1 (iotaInDim S16 32 0))))

theorem wT_term : (V m c main_v15 : S1024x1024.Idx → EReal)
    = transpose S1024x1024 [1, 0] (m ((c : Thread nD τ).loc main_arg3) : S1024x1024.Idx → EReal) transposes_S1024x1024_S1024x1024_1_0 := by
  dsimp only [Gen.V, Gen.V0]
  simp only [Gen.hostOps0, Gen.hostOps0_1, Gen.hostOps0_2, List.flatten_cons, List.flatten_nil, List.append_nil, List.cons_append, List.nil_append]
  after_results

theorem wT (d j : Fin 1024) : (V m c main_v15 : S1024x1024.Idx → EReal) (ix2 d j)
    = (m ((c : Thread nD τ).loc main_arg3) : S1024x1024.Idx → EReal) (ix2 j d) := by
  rw [wT_term]
  exact transpose_apply [1, 0] _ _ (ix2 d j) (ix2 j d) fun ax => by
    match ax with
    | ⟨0, _⟩ => rfl
    | ⟨1, _⟩ => rfl

theorem bias_term : (V m c main_v16 : S1x1024.Idx → EReal)
    = shapeCast S1x1024 (m ((c : Thread nD τ).loc main_arg4) : S1024.Idx → EReal) shapeCasts_S1024_S1x1024 := by
  dsimp only [Gen.V, Gen.V0]
  simp only [Gen.hostOps0, Gen.hostOps0_1, Gen.hostOps0_2, List.flatten_cons, List.flatten_nil, List.append_nil, List.cons_append, List.nil_append]
  after_results
  rfl

theorem bias (j : Fin 1024) : (V m c main_v16 : S1x1024.Idx → EReal) (ix2 0 j)
    = (m ((c : Thread nD τ).loc main_arg4) : S1024.Idx → EReal) (ix1 j) := by
  rw [bias_term]
  refine shapeCast_apply _ _ (ix2 0 j) (ix1 j) ?_
  rw [Shape.rowMajor_val_two, Shape.rowMajor_val_one]
  show j.val = 0 * 1024 + j.val
  omega

/-- The mask: 1 where row `d` lies in the block of 64 rows numbered `h`, else 0. -/
def mask (d : Fin 1024) (h : Fin 16) : EReal := if d.val / 64 = h.val then 1 else 0

theorem fdivVec_apply (d : Fin 1024) : fdivVec (ix1 d) = fdiv64 (BitVec.ofNat 32 d.val) := rfl

theorem maskVec_apply0 (d : Fin 1024) (h : Fin 16) :
    maskVec (ix2 d h) = FloatOps.uitofp (F := Ideal) .f32 (IntOp.cmpi .eq (fdiv64 (BitVec.ofNat 32 d.val)) (BitVec.ofNat 32 h.val)) := rfl

/-- The mask's array read at a row and a column. -/
theorem maskVec_apply (d : Fin 1024) (h : Fin 16) : maskVec (ix2 d h) = mask d h := by
  have hlt : d.val / 64 < 16 := by have := d.isLt; omega
  have e : IntOp.cmpi .eq (BitVec.ofNat 32 (d.val / 64)) (BitVec.ofNat 32 h.val) = if d.val / 64 = h.val then 1#1 else 0#1 :=
    cmpi_eq_ofNat ⟨d.val / 64, hlt⟩ h
  rw [maskVec_apply0, fdiv64_ofNat d, e]
  unfold mask
  by_cases hh : d.val / 64 = h.val
  · rw [if_pos hh, if_pos hh]
    show (((1 : ℕ) : ℝ) : EReal) = 1
    simp
  · rw [if_neg hh, if_neg hh]
    show (((0 : ℕ) : ℝ) : EReal) = 0
    simp

set_option maxHeartbeats 4000000 in
theorem emat_term : (V m c main_v9 : S16x1024.Idx → EReal) = transpose S16x1024 [1, 0] maskVec transposes_S1024x16_S16x1024_1_0 := by
  dsimp only [Gen.V, Gen.V0]
  simp only [Gen.hostOps0, Gen.hostOps0_1, Gen.hostOps0_2, List.flatten_cons, List.flatten_nil, List.append_nil, List.cons_append, List.nil_append]
  after_results_simp
  rfl

/-- The transposed mask, as the region finds it. -/
theorem emat (h : Fin 16) (d : Fin 1024) : (V m c main_v9 : S16x1024.Idx → EReal) (ix2 h d) = mask d h := by
  rw [emat_term]
  refine (transpose_apply [1, 0] maskVec transposes_S1024x16_S16x1024_1_0 (ix2 h d) (ix2 d h) fun ax => ?_).trans (maskVec_apply d h)
  match ax with
  | ⟨0, _⟩ => rfl
  | ⟨1, _⟩ => rfl

set_option maxHeartbeats 4000000 in
theorem qbd_term : (V m c main_v14 : S32x1024x16.Idx → EReal)
    = mulf (F := Ideal)
        (broadcastInDim S32x1024x16 ![0, 1, 2] bcast_S32x1024x1_S32x1024x16_0_1_2
          (broadcastInDim S32x1024x1 ![0, 1] bcast_S32x1024_S32x1024x1_0_1 (m ((c : Thread nD τ).loc main_arg0) : S32x1024.Idx → EReal)))
        (broadcastInDim S32x1024x16 ![0, 1, 2] bcast_S1x1024x16_S32x1024x16_0_1_2
          (broadcastInDim S1x1024x16 ![1, 2] bcast_S1024x16_S1x1024x16_1_2 maskVec)) := by
  dsimp only [Gen.V, Gen.V0]
  simp only [Gen.hostOps0, Gen.hostOps0_1, Gen.hostOps0_2, List.flatten_cons, List.flatten_nil, List.append_nil, List.cons_append, List.nil_append]
  after_results_simp
  rfl

/-- The input broadcast over the 16 columns and multiplied by the mask, as the region finds it. -/
theorem qbd (b : Fin 32) (d : Fin 1024) (h : Fin 16) : (V m c main_v14 : S32x1024x16.Idx → EReal) (ix3 b d h)
    = HMul.hMul (α := EReal) (β := EReal) (γ := EReal) ((m ((c : Thread nD τ).loc main_arg0) : S32x1024.Idx → EReal) (ix2 b d)) (mask d h) := by
  have hL : broadcastInDim S32x1024x16 ![0, 1, 2] bcast_S32x1024x1_S32x1024x16_0_1_2
        (broadcastInDim S32x1024x1 ![0, 1] bcast_S32x1024_S32x1024x1_0_1 (m ((c : Thread nD τ).loc main_arg0) : S32x1024.Idx → EReal))
        (ix3 b d h)
      = (m ((c : Thread nD τ).loc main_arg0) : S32x1024.Idx → EReal) (ix2 b d) := by
    refine (broadcastInDim_apply _ _ _ (ix3 b d h) (ix3 b d (0 : Fin 1)) fun a => ?_).trans
      (broadcastInDim_apply _ _ _ (ix3 b d (0 : Fin 1)) (ix2 b d) fun a => ?_)
    · match a with
      | ⟨0, _⟩ => rfl
      | ⟨1, _⟩ => rfl
      | ⟨2, _⟩ => rfl
    · match a with
      | ⟨0, _⟩ => rfl
      | ⟨1, _⟩ => rfl
  have hR : broadcastInDim S32x1024x16 ![0, 1, 2] bcast_S1x1024x16_S32x1024x16_0_1_2
        (broadcastInDim S1x1024x16 ![1, 2] bcast_S1024x16_S1x1024x16_1_2 maskVec) (ix3 b d h)
      = maskVec (ix2 d h) := by
    refine (broadcastInDim_apply _ _ _ (ix3 b d h) (ix3 (0 : Fin 1) d h) fun a => ?_).trans
      (broadcastInDim_apply _ _ _ (ix3 (0 : Fin 1) d h) (ix2 d h) fun a => ?_)
    · match a with
      | ⟨0, _⟩ => rfl
      | ⟨1, _⟩ => rfl
      | ⟨2, _⟩ => rfl
    · match a with
      | ⟨0, _⟩ => rfl
      | ⟨1, _⟩ => rfl
  rw [qbd_term, ← maskVec_apply d h]
  exact congrArg₂ (fun x y : EReal => x * y) hL hR

end Cert.KernelIdeal.PrefixRead

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.PayloadRead.lean ====
/-
  The kernel body's pure values READ AT AN INDEX, at the exact instance (vectors of extended reals).

  Each value the body stores or carries is a composition of elementwise operations, shape casts that add or drop a
  unit axis, a row broadcast, reductions over the rows of a two-axis array, and plain matrix products into the zero
  accumulator. Read at one index, an elementwise operation acts on the elements; a cast that adds or drops a leading
  unit axis keeps the remaining coordinates; a `[1, b]` row broadcast over `a` rows reads the row; a sum (maximum)
  over the rows at column `h` is the `Fin`-indexed sum (fold of `max`) over the row coordinate; and a plain
  `M×K` by `K×N` product into the zero accumulator at `(p, c)` is `∑ k, lhs[p, k] · rhs[k, c]`, a change of float
  format being the identity on extended reals.
-/
import proofs.«137162_j44925357916178_2_alg».proof.Proof.Gen.KernelIdeal.Skeleton
import proofs.«137162_j44925357916178_2_alg».proof.Proof.LibMatmulIdx
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadRead

open Idealize.ShloMosaic Idealize.ShloMosaic.ValueIdx Cert.KernelIdeal Cert.KernelIdeal.Gen

/-- A shape cast of a `[1, 16]` vector to its own shape is the vector. -/
theorem e1 (v : FVec Ideal S1x16 .f32) : k0_pay1 (F := Ideal) v = v := by
  unfold Gen.k0_pay1
  exact shapeCast_self v _

/-- A shape cast of a `[1, 16]` vector to its own shape is the vector. -/
theorem e3 (v : FVec Ideal S1x16 .f32) : k0_pay3 (F := Ideal) v = v := by
  unfold Gen.k0_pay3
  exact shapeCast_self v _

/-- A shape cast of a `[16, 1024]` array to its own shape is the array. -/
theorem e9 (x3 : Vec Ideal S16x1024 .f32) : k0_pay9 (F := Ideal) x3 = x3 := by
  unfold Gen.k0_pay9
  exact shapeCast_self x3 _

/-- A `[1, 1024, 1024]` block viewed as `[1024, 1024]` reads, at `(r, c)`, the block at `(0, r, c)`. -/
theorem e8 (x1 : Vec Ideal S1x1024x1024 .f32) (r c : Fin 1024) :
    k0_pay8 (F := Ideal) x1 (ix2 r c) = x1 (ix3 (0 : Fin 1) r c) := by
  unfold Gen.k0_pay8
  exact shapeCast_1ab_ab_apply x1 _ r c

/-- The splat of `-∞` reads `-∞` everywhere. -/
theorem e5 (h : Fin 16) : k0_pay5 (F := Ideal) (ix2 (0 : Fin 1) h) = Ideal.ofBits .f32 0xFF800000#32 := by
  unfold Gen.k0_pay5
  rw [shapeCast_self]
  rfl

/-- The splat of `+0.0` reads `0` everywhere. -/
theorem e6 (h : Fin 16) : k0_pay6 (F := Ideal) (ix2 (0 : Fin 1) h) = Ideal.ofBits .f32 0x00000000#32 := by
  unfold Gen.k0_pay6
  rw [shapeCast_self]
  rfl

/-- The splat of `+0.0` reads `0` everywhere. -/
theorem e7 (c : Fin 1024) : k0_pay7 (F := Ideal) (ix2 (0 : Fin 1) c) = Ideal.ofBits .f32 0x00000000#32 := by
  unfold Gen.k0_pay7
  rw [shapeCast_self]
  rfl

/-- The index a reduction over the rows of a `[1024, 16]` array inserts: column `h` with row `r` put back. -/
theorem lift_rows16 (h : Fin 16) (r : Fin 1024) : reduces_S1024x16_S16.lift (ix1 h) r = ix2 r h :=
  funext fun a => Fin.ext (by
    match a with
    | ⟨0, _⟩ => rfl
    | ⟨1, _⟩ => rfl)

/-- The index a reduction over the rows of a `[1024, 1024]` array inserts: column `c` with row `r` put back. -/
theorem lift_rows1024 (c : Fin 1024) (r : Fin 1024) : reduces_S1024x1024_S1024.lift (ix1 c) r = ix2 r c :=
  funext fun a => Fin.ext (by
    match a with
    | ⟨0, _⟩ => rfl
    | ⟨1, _⟩ => rfl)

/-- The scaled scores: at `(r, h)`, the product of the two blocks' matrices `∑ c, A[r, c] · B[c, h]` (a change of
    float format is the identity on extended reals, and the accumulator is the zero splat) times the splat `1/8`. -/
theorem e10 (x0 : Vec Ideal S1x1024x1024 .f32) (x2 : Vec Ideal S1x1024x16 .f32) (r : Fin 1024) (h : Fin 16) :
    k0_pay10 (F := Ideal) x0 x2 (ix2 r h)
      = (∑ c : Fin 1024, x0 (ix3 (0 : Fin 1) r c) * x2 (ix3 (0 : Fin 1) c h)) * Ideal.ofBits .f32 0x3E000000#32 := by
  unfold Gen.k0_pay10
  show FloatOps.matmul (DotDims.plain 1024 1024 16) none
      (truncf .bf16 (shapeCast S1024x1024 x0 shapeCasts_S1x1024x1024_S1024x1024) bitsLt_bf16_f32)
      (truncf .bf16 (shapeCast S1024x16 x2 shapeCasts_S1x1024x16_S1024x16) bitsLt_bf16_f32)
      (constant S1024x16 .f32 0x00000000#32) (ix2 r h) * Ideal.ofBits .f32 0x3E000000#32 = _
  refine congrArg (· * Ideal.ofBits .f32 0x3E000000#32) ?_
  refine (Cert.MatmulIdx.matmul_plain_zero_apply none _ _ r h).trans ?_
  refine Finset.sum_congr rfl fun c _ => ?_
  show shapeCast S1024x1024 x0 shapeCasts_S1x1024x1024_S1024x1024 (ix2 r c)
      * shapeCast S1024x16 x2 shapeCasts_S1x1024x16_S1024x16 (ix2 c h) = _
  rw [shapeCast_1ab_ab_apply, shapeCast_1ab_ab_apply]

/-- The running maximum: at column `h`, the larger of the old maximum and the maximum of the scaled scores over the
    `1024` rows of that column, folded from `-∞`. -/
theorem e11 (x0 : Vec Ideal S1x1024x1024 .f32) (x2 : Vec Ideal S1x1024x16 .f32) (s0 : Vec Ideal S1x16 .f32) (h : Fin 16) :
    k0_pay11 (F := Ideal) x0 x2 s0 (ix2 (0 : Fin 1) h)
      = max (s0 (ix2 (0 : Fin 1) h)) ((Finset.univ : Finset (Fin 1024)).fold max (Ideal.ofBits .f32 0xFF800000#32)
          (fun r => k0_pay10 (F := Ideal) x0 x2 (ix2 r h))) := by
  unfold Gen.k0_pay11
  show max (s0 (ix2 (0 : Fin 1) h)) (shapeCast S1x16 (multiReduction .maximumf [0] S16 (k0_pay10 (F := Ideal) x0 x2)
      0xFF800000#32 reduces_S1024x16_S16 (.inl rfl) rfl) shapeCasts_S16_S1x16 (ix2 (0 : Fin 1) h)) = _
  refine congrArg (max (s0 (ix2 (0 : Fin 1) h))) ?_
  refine (shapeCast_a_1a_apply _ _ (0 : Fin 1) h).trans ?_
  refine (Ideal.multiReduction_maximumf_single (k0_pay10 (F := Ideal) x0 x2) _ reduces_S1024x16_S16 _ _ (ix1 h)).trans ?_
  have hf : (k0_pay10 (F := Ideal) x0 x2 ∘ reduces_S1024x16_S16.lift (ix1 h))
      = fun r : Fin 1024 => k0_pay10 (F := Ideal) x0 x2 (ix2 r h) :=
    funext fun r => congrArg (k0_pay10 (F := Ideal) x0 x2) (lift_rows16 h r)
  rw [hf]
  rfl

/-- The rescaling factor of the old sums: `exp (old maximum − new maximum)` at column `h`. -/
theorem e12 (x0 : Vec Ideal S1x1024x1024 .f32) (x2 : Vec Ideal S1x1024x16 .f32) (s0 s0' : Vec Ideal S1x16 .f32) (h : Fin 16) :
    k0_pay12 (F := Ideal) x0 x2 s0 s0' (ix2 (0 : Fin 1) h)
      = Ideal.exp (s0' (ix2 (0 : Fin 1) h) - k0_pay11 (F := Ideal) x0 x2 s0 (ix2 (0 : Fin 1) h)) := by
  unfold Gen.k0_pay12
  rfl

/-- The exponentiated scores: at `(r, h)`, `exp (score − new maximum of column h)`, the row of maxima being broadcast
    over the `1024` rows. -/
theorem e13 (x0 : Vec Ideal S1x1024x1024 .f32) (x2 : Vec Ideal S1x1024x16 .f32) (s0 : Vec Ideal S1x16 .f32)
    (r : Fin 1024) (h : Fin 16) :
    k0_pay13 (F := Ideal) x0 x2 s0 (ix2 r h)
      = Ideal.exp (k0_pay10 (F := Ideal) x0 x2 (ix2 r h) - k0_pay11 (F := Ideal) x0 x2 s0 (ix2 (0 : Fin 1) h)) := by
  unfold Gen.k0_pay13
  show Ideal.exp (k0_pay10 (F := Ideal) x0 x2 (ix2 r h)
      - broadcastTo S1024x16 (k0_pay11 (F := Ideal) x0 x2 s0) broadcasts_S1x16_S1024x16 (ix2 r h)) = _
  rw [broadcastTo_1b_ab_apply]

/-- The running sum: at column `h`, the old sum rescaled plus the sum over the `1024` rows of the exponentiated
    scores of that column. -/
theorem e14 (x0 : Vec Ideal S1x1024x1024 .f32) (x2 : Vec Ideal S1x1024x16 .f32) (s0 s0' s1 : Vec Ideal S1x16 .f32) (h : Fin 16) :
    k0_pay14 (F := Ideal) x0 x2 s0 s0' s1 (ix2 (0 : Fin 1) h)
      = k0_pay12 (F := Ideal) x0 x2 s0 s0' (ix2 (0 : Fin 1) h) * s1 (ix2 (0 : Fin 1) h)
        + ∑ r : Fin 1024, k0_pay13 (F := Ideal) x0 x2 s0 (ix2 r h) := by
  unfold Gen.k0_pay14
  show k0_pay12 (F := Ideal) x0 x2 s0 s0' (ix2 (0 : Fin 1) h) * s1 (ix2 (0 : Fin 1) h)
      + shapeCast S1x16 (multiReduction .add [0] S16 (k0_pay13 (F := Ideal) x0 x2 s0)
          0x00000000#32 reduces_S1024x16_S16 (.inl rfl) rfl) shapeCasts_S16_S1x16 (ix2 (0 : Fin 1) h) = _
  refine congrArg (k0_pay12 (F := Ideal) x0 x2 s0 s0' (ix2 (0 : Fin 1) h) * s1 (ix2 (0 : Fin 1) h) + ·) ?_
  refine (shapeCast_a_1a_apply _ _ (0 : Fin 1) h).trans ?_
  refine (Ideal.multiReduction_add_single (k0_pay13 (F := Ideal) x0 x2 s0) _ reduces_S1024x16_S16 _ _ (ix1 h)).trans ?_
  exact Finset.sum_congr rfl fun r _ => congrArg (k0_pay13 (F := Ideal) x0 x2 s0) (lift_rows16 h r)

/-- The running weighted accumulator: at column `c`, the old accumulator times the rescaling factor expanded through
    the `[16, 1024]` matrix, plus the sum over the `1024` rows of the exponentiated scores expanded the same way times
    the value block. -/
theorem e2 (v6 : FVec Ideal S1024x1024 .f32) (v10 : FVec Ideal S16x1024 .f32) (v22 : FVec Ideal S1x16 .f32)
    (v25 : FVec Ideal S1024x16 .f32) (v41 : Vec Ideal S1x1024 .f32) (c : Fin 1024) :
    k0_pay2 (F := Ideal) v6 v10 v22 v25 v41 (ix2 (0 : Fin 1) c)
      = (∑ h : Fin 16, v22 (ix2 (0 : Fin 1) h) * v10 (ix2 h c)) * v41 (ix2 (0 : Fin 1) c)
        + ∑ r : Fin 1024, (∑ h : Fin 16, v25 (ix2 r h) * v10 (ix2 h c)) * v6 (ix2 r c) := by
  unfold Gen.k0_pay2
  rw [shapeCast_self]
  show FloatOps.matmul (DotDims.plain 1 16 1024) (some .fp32) v22 v10 (constant S1x1024 .f32 0x00000000#32) (ix2 (0 : Fin 1) c)
        * v41 (ix2 (0 : Fin 1) c)
      + shapeCast S1x1024 (multiReduction .add [0] S1024
          (mulf (FloatOps.matmul (DotDims.plain 1024 16 1024) none (truncf .bf16 v25 bitsLt_bf16_f32)
            (truncf .bf16 v10 bitsLt_bf16_f32) (constant S1024x1024 .f32 0x00000000#32)) v6)
          0x00000000#32 reduces_S1024x1024_S1024 (.inl rfl) rfl) shapeCasts_S1024_S1x1024 (ix2 (0 : Fin 1) c) = _
  refine congrArg₂ (· + ·) (congrArg (· * v41 (ix2 (0 : Fin 1) c)) ?_) ?_
  · exact Cert.MatmulIdx.matmul_plain_zero_apply (some .fp32) v22 v10 (0 : Fin 1) c
  · refine (shapeCast_a_1a_apply _ _ (0 : Fin 1) c).trans ?_
    refine (Ideal.multiReduction_add_single _ _ reduces_S1024x1024_S1024 _ _ (ix1 c)).trans ?_
    refine Finset.sum_congr rfl fun (r : Fin 1024) _ => ?_
    rw [lift_rows1024 c r]
    refine (mulf_apply _ v6 (ix2 r c)).trans ?_
    refine congrArg (· * v6 (ix2 r c)) ?_
    exact Cert.MatmulIdx.matmul_plain_zero_apply none _ _ r c

/-- The output row: at `j`, the accumulator divided by the sums (the reciprocals expanded through the `[16, 1024]`
    matrix) multiplied into the `[1024, 1024]` matrix, plus the bias row. -/
theorem e4 (v10 : FVec Ideal S16x1024 .f32) (v53 : Vec Ideal S1x16 .f32) (v57 : Vec Ideal S1x1024 .f32)
    (v60 : Vec Ideal S1024x1024 .f32) (v64 : Vec Ideal S1x1024 .f32) (j : Fin 1024) :
    k0_pay4 (F := Ideal) v10 v53 v57 v60 v64 (ix3 (0 : Fin 1) (0 : Fin 1) j)
      = (∑ c : Fin 1024, (v57 (ix2 (0 : Fin 1) c)
            * ∑ h : Fin 16, Ideal.div (Ideal.ofBits .f32 0x3F800000#32) (v53 (ix2 (0 : Fin 1) h)) * v10 (ix2 h c))
          * v60 (ix2 c j)) + v64 (ix2 (0 : Fin 1) j) := by
  unfold Gen.k0_pay4
  rw [shapeCast_self v60, shapeCast_self v64]
  refine (shapeCast_ab_1ab_apply _ _ (0 : Fin 1) (0 : Fin 1) j).trans ?_
  show FloatOps.matmul (DotDims.plain 1 1024 1024) none
        (truncf .bf16 (mulf v57 (FloatOps.matmul (DotDims.plain 1 16 1024) (some .fp32)
          (divf (broadcast S1x16 (Ideal.ofBits .f32 0x3F800000#32)) v53) v10 (constant S1x1024 .f32 0x00000000#32))) bitsLt_bf16_f32)
        (truncf .bf16 v60 bitsLt_bf16_f32) (constant S1x1024 .f32 0x00000000#32) (ix2 (0 : Fin 1) j)
      + v64 (ix2 (0 : Fin 1) j) = _
  refine congrArg (· + v64 (ix2 (0 : Fin 1) j)) ?_
  refine (Cert.MatmulIdx.matmul_plain_zero_apply none _ _ (0 : Fin 1) j).trans ?_
  refine Finset.sum_congr rfl fun c _ => ?_
  refine congrArg (· * v60 (ix2 c j)) ?_
  refine congrArg (v57 (ix2 (0 : Fin 1) c) * ·) ?_
  exact Cert.MatmulIdx.matmul_plain_zero_apply (some .fp32) _ v10 (0 : Fin 1) c

end Cert.KernelIdeal.PayloadRead

end
-- ==== Proof.Final.lean ====
/-
  The last point's output is the specification.

  Once all four key tiles of batch `b` are absorbed, the running denominator holds, per head `h`, the sum over the 4096
  key rows of `exp (score − μ h)` for some real shift `μ h`, and the running numerator holds, per column `c`, the sum
  of `exp (score − μ (c / 64)) · v`. The output row multiplies the numerator by the reciprocal denominators expanded to
  the hidden axis through the 0/1 head mask — which keeps the denominator of the column's own head —, so each column
  holds the softmax-weighted mean of the value rows (a softmax does not depend on the shift), and the linear layer
  and the bias row give the specified output.
-/
import proofs.«137162_j44925357916178_2_alg».proof.Proof.Gen.KernelIdeal.Skeleton
import proofs.«137162_j44925357916178_2_alg».proof.Proof.PayloadRead
import proofs.«137162_j44925357916178_2_alg».proof.Proof.RealLaws
import proofs.«137162_j44925357916178_2_alg».proof.Proof.Spec

noncomputable section

open scoped BigOperators

namespace Cert.KernelIdeal.Final

open Idealize.ShloMosaic Idealize.ShloMosaic.ValueIdx Cert.KernelIdeal Cert.KernelIdeal.Gen Cert.Attn

/-- With all four key tiles of batch `b` absorbed into the running denominator `l` and numerator `a`, the head mask in
    `x3`, the linear layer's matrix (transposed) in `x4` and its bias row in `x5`, entry `j` of the output row is
    `out q k v w β b j`. -/
theorem final (q : Fin 32 → Fin 1024 → ℝ) (k v : Fin 32 → Fin 4096 → Fin 1024 → ℝ) (w : Fin 1024 → Fin 1024 → ℝ)
    (β : Fin 1024 → ℝ) (b : Fin 32) (x3 : Vec Ideal S16x1024 .f32) (x4 : Vec Ideal S1024x1024 .f32)
    (x5 : Vec Ideal S1x1024 .f32) (m l : Vec Ideal S1x16 .f32) (a : Vec Ideal S1x1024 .f32)
    (habs : Absorbed q k v b Finset.univ m l a)
    (hx3 : ∀ (h : Fin 16) (d : Fin 1024), x3 (ix2 h d) = (if d.val / 64 = h.val then (1 : EReal) else 0))
    (hx4 : ∀ (c j : Fin 1024), x4 (ix2 c j) = ((w j c : ℝ) : EReal))
    (hx5 : ∀ j : Fin 1024, x5 (ix2 (0 : Fin 1) j) = ((β j : ℝ) : EReal)) (j : Fin 1024) :
    k0_pay4 (F := Ideal) (k0_pay9 x3) l a x4 x5 (ix3 (0 : Fin 1) (0 : Fin 1) j) = ((out q k v w β b j : ℝ) : EReal) := by
  obtain ⟨μ, _, hl, ha⟩ := habs
  -- the sums over the four tiles of 1024 rows are sums over the 4096 key rows
  have hL : ∀ h : Fin 16, (∑ i ∈ (Finset.univ : Finset (Fin 4)), ∑ r : Fin 1024, Real.exp (score q k b h (row i r) - μ h))
      = ∑ s : Fin 4096, Real.exp (score q k b h s - μ h) := fun h =>
    (Laws.sum_rows (fun s => Real.exp (score q k b h s - μ h))).symm
  have hA : ∀ c : Fin 1024, (∑ i ∈ (Finset.univ : Finset (Fin 4)), ∑ r : Fin 1024,
        Real.exp (score q k b (hOf c) (row i r) - μ (hOf c)) * v b (row i r) c)
      = ∑ s : Fin 4096, Real.exp (score q k b (hOf c) s - μ (hOf c)) * v b s c := fun c =>
    (Laws.sum_rows (fun s => Real.exp (score q k b (hOf c) s - μ (hOf c)) * v b s c)).symm
  -- a sum of exponentials over the key rows is not zero
  have hpos : ∀ h : Fin 16, (∑ s : Fin 4096, Real.exp (score q k b h s - μ h)) ≠ 0 := fun h =>
    (Laws.sum_exp_pos (fun s : Fin 4096 => score q k b h s - μ h)).ne'
  -- the head mask keeps the reciprocal denominator of the column's own head
  have hmask : ∀ c : Fin 1024, (∑ h : Fin 16, (1 / ∑ s : Fin 4096, Real.exp (score q k b h s - μ h))
        * (if c.val / 64 = h.val then (1 : ℝ) else 0))
      = 1 / ∑ s : Fin 4096, Real.exp (score q k b (hOf c) s - μ (hOf c)) := fun c =>
    Laws.sum_mask_heads (fun h => 1 / ∑ s : Fin 4096, Real.exp (score q k b h s - μ h)) c
  -- so each column of the normalised numerator is the softmax-weighted mean
  have hctx : ∀ c : Fin 1024, (a (ix2 (0 : Fin 1) c) * ∑ h : Fin 16,
        Ideal.div (Ideal.ofBits .f32 0x3F800000#32) (l (ix2 (0 : Fin 1) h)) * x3 (ix2 h c))
      = ((ctx q k v b c : ℝ) : EReal) := by
    intro c
    have hterm : ∀ h : Fin 16, Ideal.div (Ideal.ofBits .f32 0x3F800000#32) (l (ix2 (0 : Fin 1) h)) * x3 (ix2 h c)
        = (((1 / ∑ s : Fin 4096, Real.exp (score q k b h s - μ h))
            * (if c.val / 64 = h.val then (1 : ℝ) else 0) : ℝ) : EReal) := by
      intro h
      rw [Laws.ofBits_one, hl h, hL h, Laws.div_coe_coe 1 (hpos h), hx3 h c, Laws.mask_coe c h, ← EReal.coe_mul]
    have hsumh : (∑ h : Fin 16, Ideal.div (Ideal.ofBits .f32 0x3F800000#32) (l (ix2 (0 : Fin 1) h)) * x3 (ix2 h c))
        = ((1 / ∑ s : Fin 4096, Real.exp (score q k b (hOf c) s - μ (hOf c)) : ℝ) : EReal) := by
      rw [Finset.sum_congr rfl (fun h _ => hterm h), Laws.coe_sum, hmask c]
    rw [hsumh, ha c, hA c, ← EReal.coe_mul]
    refine congrArg (fun r : ℝ => (r : EReal)) ?_
    exact Laws.softmax_mean_shift (μ (hOf c)) (fun s => score q k b (hOf c) s) (fun s => v b s c)
  rw [PayloadRead.e9, PayloadRead.e4]
  have hsum : (∑ c : Fin 1024, (a (ix2 (0 : Fin 1) c) * ∑ h : Fin 16,
        Ideal.div (Ideal.ofBits .f32 0x3F800000#32) (l (ix2 (0 : Fin 1) h)) * x3 (ix2 h c)) * x4 (ix2 c j))
      = ∑ c : Fin 1024, ((ctx q k v b c * w j c : ℝ) : EReal) :=
    Finset.sum_congr rfl fun c _ => by rw [hctx c, hx4 c j, ← EReal.coe_mul]
  rw [hsum, Laws.coe_sum, hx5 j, ← EReal.coe_add]
  rfl

end Cert.KernelIdeal.Final

end
-- ==== Proof.Step.lean ====
/-
  One step of the online softmax. The kernel keeps, per head, a running maximum `m`, a running denominator `l` and,
  per column, a running numerator `a`. Absorbing a tile of 1024 key rows with scores `e` it sets
  `m' = max m (max_r e_r)`, `l' = exp (m − m') · l + ∑_r exp (e_r − m')` and
  `a' = exp (m − m') · a + ∑_r exp (e_r − m') · v_r`. Since `exp (m − m') · exp (x − m) = exp (x − m')`, if `l` and `a` were
  the sums of `exp (score − m)` and of `exp (score − m) · v` over the rows absorbed so far, then `l'` and `a'` are the same
  sums with `m'` subtracted, over those rows and the new tile. At the first tile `m = −∞`, `l = a = 0`, the factor
  `exp (−∞ − m')` is `0`, and only the new tile's sums remain.
-/
import Mathlib
import proofs.«137162_j44925357916178_2_alg».proof.Proof.Gen.KernelIdeal.Skeleton
import proofs.«137162_j44925357916178_2_alg».proof.Proof.PayloadRead
import proofs.«137162_j44925357916178_2_alg».proof.Proof.RealLaws
import proofs.«137162_j44925357916178_2_alg».proof.Proof.Spec

noncomputable section

open scoped BigOperators

namespace Cert.KernelIdeal.Step

open Idealize.ShloMosaic Idealize.ShloMosaic.ValueIdx Cert.KernelIdeal Cert.KernelIdeal.Gen Cert.Attn
open Cert.KernelIdeal.PayloadRead Cert.Attn.Laws

section

variable (q : Fin 32 → Fin 1024 → ℝ) (k v : Fin 32 → Fin 4096 → Fin 1024 → ℝ) (b : Fin 32) (i : Fin 4)
  (x0 x1 : Vec Ideal S1x1024x1024 .f32) (x2 : Vec Ideal S1x1024x16 .f32) (x3 : Vec Ideal S16x1024 .f32)

/-- (S1) The tile's scores: the product of the key tile with the query spread over its head's column, scaled by
    `1/8`, is the score of key row `1024 i + r` for head `h`. -/
theorem score_eq
    (hx0 : ∀ r cc, x0 (ix3 (0 : Fin 1) r cc) = ((k b (row i r) cc : ℝ) : EReal))
    (hx2 : ∀ d h, x2 (ix3 (0 : Fin 1) d h)
      = ((q b d : ℝ) : EReal) * (if d.val / 64 = h.val then (1 : EReal) else 0))
    (r : Fin 1024) (h : Fin 16) :
    k0_pay10 (F := Ideal) x0 x2 (ix2 r h) = ((score q k b h (row i r) : ℝ) : EReal) := by
  rw [e10, ofBits_eighth]
  have hterm : ∀ c : Fin 1024, x0 (ix3 (0 : Fin 1) r c) * x2 (ix3 (0 : Fin 1) c h)
      = (((k b (row i r) c * q b c) * (if c.val / 64 = h.val then (1 : ℝ) else 0) : ℝ) : EReal) := by
    intro c
    rw [hx0, hx2, mask_coe, ← EReal.coe_mul, ← EReal.coe_mul, mul_assoc]
  rw [Finset.sum_congr rfl (fun c _ => hterm c), coe_sum, sum_mask_cols (fun c => k b (row i r) c * q b c) h,
    ← EReal.coe_mul]
  refine congrArg _ ?_
  rw [score, mul_one_div]
  refine congrArg (· / 8) ?_
  exact Finset.sum_congr rfl fun d _ => mul_comm _ _

/-- (S2) The new maximum is a real number, whether the old one was a real or `-∞`. -/
theorem newmax_real
    (hx0 : ∀ r cc, x0 (ix3 (0 : Fin 1) r cc) = ((k b (row i r) cc : ℝ) : EReal))
    (hx2 : ∀ d h, x2 (ix3 (0 : Fin 1) d h)
      = ((q b d : ℝ) : EReal) * (if d.val / 64 = h.val then (1 : EReal) else 0))
    (s0 : Vec Ideal S1x16 .f32) (h : Fin 16)
    (hs : s0 (ix2 (0 : Fin 1) h) = (⊥ : EReal) ∨ ∃ μ : ℝ, s0 (ix2 (0 : Fin 1) h) = (μ : EReal)) :
    ∃ μ' : ℝ, k0_pay11 (F := Ideal) x0 x2 s0 (ix2 (0 : Fin 1) h) = (μ' : EReal) := by
  have hfun : (fun r : Fin 1024 => k0_pay10 (F := Ideal) x0 x2 (ix2 r h))
      = fun r : Fin 1024 => ((score q k b h (row i r) : ℝ) : EReal) :=
    funext fun r => score_eq q k b i x0 x2 hx0 hx2 r h
  obtain ⟨m, hm⟩ := fold_max_coe (n := 1024) (fun r => score q k b h (row i r)) (by norm_num)
  rw [e11, ofBits_neg_inf, hfun, hm]
  rcases hs with h0 | ⟨μ, h0⟩
  · rw [h0]; exact ⟨m, max_bot_coe m⟩
  · rw [h0]; exact ⟨max μ m, max_coe μ m⟩

/-- The step itself, from what it needs of the old state: the new maximum is the real `μ'`, the rescale factor is the
    real `α`, the old denominator and numerator are the reals `L` and `A`, and rescaled they are the sums over the
    tiles already absorbed with `μ'` subtracted. -/
theorem step_core
    (hx0 : ∀ r cc, x0 (ix3 (0 : Fin 1) r cc) = ((k b (row i r) cc : ℝ) : EReal))
    (hx1 : ∀ r cc, x1 (ix3 (0 : Fin 1) r cc) = ((v b (row i r) cc : ℝ) : EReal))
    (hx2 : ∀ d h, x2 (ix3 (0 : Fin 1) d h)
      = ((q b d : ℝ) : EReal) * (if d.val / 64 = h.val then (1 : EReal) else 0))
    (hx3 : ∀ h d, x3 (ix2 h d) = (if d.val / 64 = h.val then (1 : EReal) else 0))
    (I : Finset (Fin 4)) (hi : i ∉ I) (s0 s1 : Vec Ideal S1x16 .f32) (s2 : Vec Ideal S1x1024 .f32)
    (μ' α L : Fin 16 → ℝ) (A : Fin 1024 → ℝ)
    (hm : ∀ h, k0_pay11 (F := Ideal) x0 x2 s0 (ix2 (0 : Fin 1) h) = ((μ' h : ℝ) : EReal))
    (hα : ∀ h, k0_pay12 (F := Ideal) x0 x2 s0 s0 (ix2 (0 : Fin 1) h) = ((α h : ℝ) : EReal))
    (hL : ∀ h, s1 (ix2 (0 : Fin 1) h) = ((L h : ℝ) : EReal))
    (hA : ∀ c, s2 (ix2 (0 : Fin 1) c) = ((A c : ℝ) : EReal))
    (hαL : ∀ h, α h * L h = ∑ i' ∈ I, ∑ r : Fin 1024, Real.exp (score q k b h (row i' r) - μ' h))
    (hαA : ∀ c, α (hOf c) * A c
      = ∑ i' ∈ I, ∑ r : Fin 1024, Real.exp (score q k b (hOf c) (row i' r) - μ' (hOf c)) * v b (row i' r) c) :
    Absorbed q k v b (insert i I) (k0_pay3 (F := Ideal) (k0_pay11 x0 x2 s0))
      (k0_pay1 (k0_pay14 x0 x2 s0 s0 s1))
      (k0_pay2 (k0_pay8 x1) (k0_pay9 x3) (k0_pay12 x0 x2 s0 s0) (k0_pay13 x0 x2 s0) s2) := by
  -- (S4) the tile's weights
  have hw : ∀ (r : Fin 1024) (h : Fin 16), k0_pay13 (F := Ideal) x0 x2 s0 (ix2 r h)
      = ((Real.exp (score q k b h (row i r) - μ' h) : ℝ) : EReal) := by
    intro r h
    rw [e13, score_eq q k b i x0 x2 hx0 hx2 r h, hm h, ← EReal.coe_sub, Ideal.exp_coe]
  refine ⟨μ', fun h => ?_, fun h => ?_, fun c => ?_⟩
  · rw [e3]; exact hm h
  · -- (S5) the denominator
    rw [e1, e14, hα h, hL h, Finset.sum_congr rfl (fun r _ => hw r h), coe_sum, ← EReal.coe_mul, ← EReal.coe_add,
      hαL h, Finset.sum_insert hi, add_comm]
  · -- (S6) the numerator
    have hhead : ∀ a : Fin 16 → ℝ, ∀ y : Fin 16 → EReal, (∀ h, y h = ((a h : ℝ) : EReal)) →
        ∑ h : Fin 16, y h * k0_pay9 (F := Ideal) x3 (ix2 h c) = ((a (hOf c) : ℝ) : EReal) := by
      intro a y hy
      have hterm : ∀ h : Fin 16, y h * k0_pay9 (F := Ideal) x3 (ix2 h c)
          = ((a h * (if c.val / 64 = h.val then (1 : ℝ) else 0) : ℝ) : EReal) := by
        intro h
        rw [e9, hx3, hy h, mask_coe, ← EReal.coe_mul]
      rw [Finset.sum_congr rfl (fun h _ => hterm h), coe_sum, sum_mask_heads a c]
    have hrow : ∀ r : Fin 1024,
        (∑ h : Fin 16, k0_pay13 (F := Ideal) x0 x2 s0 (ix2 r h) * k0_pay9 (F := Ideal) x3 (ix2 h c))
          * k0_pay8 (F := Ideal) x1 (ix2 r c)
        = ((Real.exp (score q k b (hOf c) (row i r) - μ' (hOf c)) * v b (row i r) c : ℝ) : EReal) := by
      intro r
      rw [hhead (fun h => Real.exp (score q k b h (row i r) - μ' h)) _ (fun h => hw r h), e8, hx1, ← EReal.coe_mul]
    rw [e2, hhead α _ hα, hA c, Finset.sum_congr rfl (fun r _ => hrow r), coe_sum, ← EReal.coe_mul, ← EReal.coe_add,
      hαA c, Finset.sum_insert hi, add_comm]

/-- ONE STEP AFTER THE FIRST: absorbing tile `i` into a state that holds the tiles of `I`. -/
theorem step_next
    (hx0 : ∀ r cc, x0 (ix3 (0 : Fin 1) r cc) = ((k b (row i r) cc : ℝ) : EReal))
    (hx1 : ∀ r cc, x1 (ix3 (0 : Fin 1) r cc) = ((v b (row i r) cc : ℝ) : EReal))
    (hx2 : ∀ d h, x2 (ix3 (0 : Fin 1) d h)
      = ((q b d : ℝ) : EReal) * (if d.val / 64 = h.val then (1 : EReal) else 0))
    (hx3 : ∀ h d, x3 (ix2 h d) = (if d.val / 64 = h.val then (1 : EReal) else 0))
    (I : Finset (Fin 4)) (hi : i ∉ I) (xs0 xs1 : Vec Ideal S1x16 .f32) (xs2 : Vec Ideal S1x1024 .f32)
    (hprev : Absorbed q k v b I xs0 xs1 xs2) :
    Absorbed q k v b (insert i I) (k0_pay3 (F := Ideal) (k0_pay11 x0 x2 xs0))
      (k0_pay1 (k0_pay14 x0 x2 xs0 xs0 xs1))
      (k0_pay2 (k0_pay8 x1) (k0_pay9 x3) (k0_pay12 x0 x2 xs0 xs0) (k0_pay13 x0 x2 xs0) xs2) := by
  obtain ⟨μ, hμ, hl, ha⟩ := hprev
  -- (S2) the new maximum, a real per head
  choose μ' hm using fun h : Fin 16 =>
    newmax_real q k b i x0 x2 hx0 hx2 xs0 h (Or.inr ⟨μ h, hμ h⟩)
  refine step_core q k v b i x0 x1 x2 x3 hx0 hx1 hx2 hx3 I hi xs0 xs1 xs2 μ'
    (fun h => Real.exp (μ h - μ' h)) _ _ hm (fun h => ?_) hl ha (fun h => ?_) (fun c => ?_)
  · -- (S3) the rescale factor
    rw [e12, hμ h, hm h, ← EReal.coe_sub, Ideal.exp_coe]
  · rw [Finset.mul_sum]
    exact Finset.sum_congr rfl fun i' _ => sum_exp_shift (μ h) (μ' h) Finset.univ _
  · rw [Finset.mul_sum]
    exact Finset.sum_congr rfl fun i' _ => sum_exp_mul_shift (μ (hOf c)) (μ' (hOf c)) Finset.univ _ _

/-- THE FIRST STEP: absorbing tile `i` into the initial state (maximum `-∞`, denominator and numerator `0`). -/
theorem step_first
    (hx0 : ∀ r cc, x0 (ix3 (0 : Fin 1) r cc) = ((k b (row i r) cc : ℝ) : EReal))
    (hx1 : ∀ r cc, x1 (ix3 (0 : Fin 1) r cc) = ((v b (row i r) cc : ℝ) : EReal))
    (hx2 : ∀ d h, x2 (ix3 (0 : Fin 1) d h)
      = ((q b d : ℝ) : EReal) * (if d.val / 64 = h.val then (1 : EReal) else 0))
    (hx3 : ∀ h d, x3 (ix2 h d) = (if d.val / 64 = h.val then (1 : EReal) else 0)) :
    Absorbed q k v b {i} (k0_pay3 (F := Ideal) (k0_pay11 x0 x2 (k0_pay5 (F := Ideal))))
      (k0_pay1 (k0_pay14 x0 x2 (k0_pay5 (F := Ideal)) (k0_pay5 (F := Ideal)) (k0_pay6 (F := Ideal))))
      (k0_pay2 (k0_pay8 x1) (k0_pay9 x3) (k0_pay12 x0 x2 (k0_pay5 (F := Ideal)) (k0_pay5 (F := Ideal)))
        (k0_pay13 x0 x2 (k0_pay5 (F := Ideal))) (k0_pay7 (F := Ideal))) := by
  have h5 : ∀ h : Fin 16, k0_pay5 (F := Ideal) (ix2 (0 : Fin 1) h) = (⊥ : EReal) := fun h => by
    rw [e5, ofBits_neg_inf]
  -- (S2) the new maximum, a real per head
  choose μ' hm using fun h : Fin 16 =>
    newmax_real q k b i x0 x2 hx0 hx2 (k0_pay5 (F := Ideal)) h (Or.inl (h5 h))
  have hcore := step_core q k v b i x0 x1 x2 x3 hx0 hx1 hx2 hx3 ∅ (Finset.notMem_empty i)
    (k0_pay5 (F := Ideal)) (k0_pay6 (F := Ideal)) (k0_pay7 (F := Ideal)) μ'
    (fun _ => 0) (fun _ => 0) (fun _ => 0) hm (fun h => ?_) (fun h => ?_) (fun c => ?_) (fun h => ?_) (fun c => ?_)
  · rwa [Finset.insert_empty] at hcore
  · -- (S3) the rescale factor of the empty state is zero
    rw [e12, h5 h, hm h, exp_bot_sub_coe]
  · rw [e6, ofBits_zero]
  · rw [e7, ofBits_zero]
  · rw [Finset.sum_empty, mul_zero]
  · rw [Finset.sum_empty, mul_zero]

end

end Cert.KernelIdeal.Step
-- ==== Proof.Chain.lean ====
/-
  The kernel's three running quantities, point by point.

  The grid has 32 × 4 points; point `t` handles key tile `t mod 4` (rows `1024·(t mod 4) …`) of batch `t / 4`. The
  first point of a batch resets the running maximum, denominator and numerator and absorbs tile 0; each later point
  absorbs its tile on top of what the point before left; after the fourth point all 4096 keys of the batch are
  absorbed, and that point stores the normalized context times the weight plus the bias: the specification's row of the
  batch. Each point's input blocks are read as real entries of the argument arrays (a key or value tile, the batch's
  query spread over its heads' columns, the head indicator, the transposed weight, the bias), the arguments being finite.
-/
import proofs.«137162_j44925357916178_2_alg».proof.Proof.Gen.KernelIdeal.Frame
import proofs.«137162_j44925357916178_2_alg».proof.Proof.Pieces
import proofs.«137162_j44925357916178_2_alg».proof.Proof.Spec
import proofs.«137162_j44925357916178_2_alg».proof.Proof.Blocks
import proofs.«137162_j44925357916178_2_alg».proof.Proof.PrefixRead
import proofs.«137162_j44925357916178_2_alg».proof.Proof.Final
import proofs.«137162_j44925357916178_2_alg».proof.Proof.Step
import Idealize.ShloMosaic.Lib.Pipeline.Value

noncomputable section

open Idealize.ShloMosaic Idealize.ShloMosaic.ValueIdx Idealize.ShloMosaic.TcCoe Idealize.SL.Sem
open Idealize.ShloMosaic.Pipeline (Dat)

namespace Cert.KernelIdeal.Chain

open Cert.KernelIdeal Cert.KernelIdeal.Gen Cert.KernelIdeal.Pieces Cert.Attn

variable (m : (ℓ : Loc nD τ sig) → Buf (Elt Ideal) ℓ) (c : Dev nD)

/-- The five argument arrays as the memory holds them. -/
abbrev Qa : S32x1024.Idx → EReal := m ((c : Thread nD τ).loc main_arg0)
abbrev Ka : S32x4096x1024.Idx → EReal := m ((c : Thread nD τ).loc main_arg1)
abbrev Va : S32x4096x1024.Idx → EReal := m ((c : Thread nD τ).loc main_arg2)
abbrev Wa : S1024x1024.Idx → EReal := m ((c : Thread nD τ).loc main_arg3)
abbrev Ba : S1024.Idx → EReal := m ((c : Thread nD τ).loc main_arg4)

section Tiles

/-- The key tile at a point: rows `1024·(t mod 4) + r` of batch `t / 4`. -/
theorem key_tile (hK : IsReal (Ka m c)) (t : Fin cfg0.N) (b : Fin 32) (hb : b.val = t.val / 4) (i : Fin 4) (hi : i.val = t.val % 4) (r cc : Fin 1024) :
    (iblk m c 0 t : Vec Ideal S1x1024x1024 .f32) (ix3 (0 : Fin 1) r cc) = ((re3 (Ka m c) b (row i r) cc : ℝ) : EReal) := by
  rw [Blocks.blk0 m c t b hb r cc (row i r) (by simp only [row]; omega), V_main_arg1]
  exact hK.re3 b (row i r) cc

/-- The value tile at a point. -/
theorem value_tile (hV : IsReal (Va m c)) (t : Fin cfg0.N) (b : Fin 32) (hb : b.val = t.val / 4) (i : Fin 4) (hi : i.val = t.val % 4) (r cc : Fin 1024) :
    (iblk m c 1 t : Vec Ideal S1x1024x1024 .f32) (ix3 (0 : Fin 1) r cc) = ((re3 (Va m c) b (row i r) cc : ℝ) : EReal) := by
  rw [Blocks.blk1 m c t b hb r cc (row i r) (by simp only [row]; omega), V_main_arg2]
  exact hV.re3 b (row i r) cc

/-- The query block at a point: the batch's query spread over its heads' columns. -/
theorem query_block (hQ : IsReal (Qa m c)) (t : Fin cfg0.N) (b : Fin 32) (hb : b.val = t.val / 4) (d : Fin 1024) (h : Fin 16) :
    (iblk m c 2 t : Vec Ideal S1x1024x16 .f32) (ix3 (0 : Fin 1) d h)
      = ((re2 (Qa m c) b d : ℝ) : EReal) * (if d.val / 64 = h.val then (1 : EReal) else 0) := by
  rw [Blocks.blk2 m c t b hb d h, PrefixRead.qbd m c b d h]
  exact congrArg (· * _) (hQ.re2 b d)

/-- The head indicator block. -/
theorem head_block (t : Fin cfg0.N) (h : Fin 16) (d : Fin 1024) :
    (iblk m c 3 t : Vec Ideal S16x1024 .f32) (ix2 h d) = (if d.val / 64 = h.val then (1 : EReal) else 0) := by
  rw [Blocks.blk3 m c t h d, PrefixRead.emat m c h d]; rfl

/-- The transposed weight block. -/
theorem weight_block (hW : IsReal (Wa m c)) (t : Fin cfg0.N) (d j : Fin 1024) :
    (iblk m c 4 t : Vec Ideal S1024x1024 .f32) (ix2 d j) = ((re2 (Wa m c) j d : ℝ) : EReal) := by
  rw [Blocks.blk4 m c t d j, PrefixRead.wT m c d j]
  exact hW.re2 j d

/-- The bias block. -/
theorem bias_block (hB : IsReal (Ba m c)) (t : Fin cfg0.N) (j : Fin 1024) :
    (iblk m c 5 t : Vec Ideal S1x1024 .f32) (ix2 (0 : Fin 1) j) = ((re1 (Ba m c) j : ℝ) : EReal) := by
  rw [Blocks.blk5 m c t j, PrefixRead.bias m c j]
  exact hB.re1 j

end Tiles

/-! ## The three running quantities after each point -/

/-- What the point before left (the generated accumulation's own spelling of it). -/
abbrev prev (t : Fin cfg0.N) := outsAt0 m c (t.val - 1) (Nat.lt_of_le_of_lt (Nat.sub_le _ _) t.isLt)

section Points

set_option maxRecDepth 65536
set_option maxHeartbeats 1000000

/-- After the first point of a batch the first key tile is absorbed. -/
theorem after_first (hQ : IsReal (Qa m c)) (hK : IsReal (Ka m c)) (hV : IsReal (Va m c)) (t : Fin cfg0.N) (b : Fin 32) (hb : b.val = t.val / 4) (h0 : t.val % 4 = 0) :
    Absorbed (re2 (Qa m c)) (re3 (Ka m c)) (re3 (Va m c)) b {0}
      (outsAt0 m c t.val t.isLt).2.1 (outsAt0 m c t.val t.isLt).2.2.1 (outsAt0 m c t.val t.isLt).2.2.2 := by
  have h1 : ¬t.val % 4 = 3 := by omega
  rw [outsAt0_A m c t h0 h1]
  dsimp only
  rw [sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)]
  have hi : (0 : Fin 4).val = t.val % 4 := by show (0 : ℕ) = _; omega
  exact Step.step_first (re2 (Qa m c)) (re3 (Ka m c)) (re3 (Va m c)) b 0 (iblk m c 0 t) (iblk m c 1 t) (iblk m c 2 t) (iblk m c 3 t)
    (key_tile m c hK t b hb 0 hi) (value_tile m c hV t b hb 0 hi)
    (query_block m c hQ t b hb) (head_block m c t)

/-- A middle point of a batch absorbs its key tile on top of what the point before left. -/
theorem after_middle (hQ : IsReal (Qa m c)) (hK : IsReal (Ka m c)) (hV : IsReal (Va m c)) (t : Fin cfg0.N) (b : Fin 32) (hb : b.val = t.val / 4) (i : Fin 4) (hi : i.val = t.val % 4)
    (h0 : ¬t.val % 4 = 0) (h1 : ¬t.val % 4 = 3) (I : Finset (Fin 4)) (hiI : i ∉ I)
    (hprev : Absorbed (re2 (Qa m c)) (re3 (Ka m c)) (re3 (Va m c)) b I (prev m c t).2.1 (prev m c t).2.2.1 (prev m c t).2.2.2) :
    Absorbed (re2 (Qa m c)) (re3 (Ka m c)) (re3 (Va m c)) b (insert i I)
      (outsAt0 m c t.val t.isLt).2.1 (outsAt0 m c t.val t.isLt).2.2.1 (outsAt0 m c t.val t.isLt).2.2.2 := by
  rw [outsAt0_B m c t h0 h1]
  dsimp only
  rw [sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (prev m c t).2.1 (prev m c t).2.2.1 (prev m c t).2.2.2, sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (prev m c t).2.1 (prev m c t).2.2.1 (prev m c t).2.2.2, sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (prev m c t).2.1 (prev m c t).2.2.1 (prev m c t).2.2.2]
  exact Step.step_next (re2 (Qa m c)) (re3 (Ka m c)) (re3 (Va m c)) b i (iblk m c 0 t) (iblk m c 1 t) (iblk m c 2 t) (iblk m c 3 t)
    (key_tile m c hK t b hb i hi) (value_tile m c hV t b hb i hi) (query_block m c hQ t b hb) (head_block m c t)
    I hiI _ _ _ hprev

/-- The last point of a batch absorbs the last key tile likewise. -/
theorem after_last (hQ : IsReal (Qa m c)) (hK : IsReal (Ka m c)) (hV : IsReal (Va m c)) (t : Fin cfg0.N) (b : Fin 32) (hb : b.val = t.val / 4) (i : Fin 4) (hi : i.val = t.val % 4)
    (h0 : ¬t.val % 4 = 0) (h1 : t.val % 4 = 3) (I : Finset (Fin 4)) (hiI : i ∉ I)
    (hprev : Absorbed (re2 (Qa m c)) (re3 (Ka m c)) (re3 (Va m c)) b I (prev m c t).2.1 (prev m c t).2.2.1 (prev m c t).2.2.2) :
    Absorbed (re2 (Qa m c)) (re3 (Ka m c)) (re3 (Va m c)) b (insert i I)
      (outsAt0 m c t.val t.isLt).2.1 (outsAt0 m c t.val t.isLt).2.2.1 (outsAt0 m c t.val t.isLt).2.2.2 := by
  rw [outsAt0_C m c t h0 h1]
  dsimp only
  rw [sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (prev m c t).2.1 (prev m c t).2.2.1 (prev m c t).2.2.2, sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (prev m c t).2.1 (prev m c t).2.2.1 (prev m c t).2.2.2, sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (prev m c t).2.1 (prev m c t).2.2.1 (prev m c t).2.2.2]
  exact Step.step_next (re2 (Qa m c)) (re3 (Ka m c)) (re3 (Va m c)) b i (iblk m c 0 t) (iblk m c 1 t) (iblk m c 2 t) (iblk m c 3 t)
    (key_tile m c hK t b hb i hi) (value_tile m c hV t b hb i hi) (query_block m c hQ t b hb) (head_block m c t)
    I hiI _ _ _ hprev

/-- What the last point of a batch stores into the output block, once all four key tiles are absorbed: the
    specification's row of that batch. -/
theorem out_last (hW : IsReal (Wa m c)) (hB : IsReal (Ba m c)) (t : Fin cfg0.N) (b : Fin 32) (h3 : t.val % 4 = 3)
    (hall : Absorbed (re2 (Qa m c)) (re3 (Ka m c)) (re3 (Va m c)) b Finset.univ
      (outsAt0 m c t.val t.isLt).2.1 (outsAt0 m c t.val t.isLt).2.2.1 (outsAt0 m c t.val t.isLt).2.2.2) (j : Fin 1024) :
    (outsAt0 m c t.val t.isLt).1 (ix3 (0 : Fin 1) (0 : Fin 1) j) = G (Qa m c) (Ka m c) (Va m c) (Wa m c) (Ba m c) b j := by
  have h0 : ¬t.val % 4 = 0 := by omega
  have h1 : t.val % 4 = 3 := h3
  rw [outsAt0_C m c t h0 h1] at hall ⊢
  dsimp only at hall ⊢
  rw [out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (prev m c t).2.1 (prev m c t).2.2.1 (prev m c t).2.2.2]
  exact Final.final (re2 (Qa m c)) (re3 (Ka m c)) (re3 (Va m c)) (re2 (Wa m c)) (re1 (Ba m c)) b (iblk m c 3 t) (iblk m c 4 t) (iblk m c 5 t) _ _ _ hall
    (head_block m c t) (weight_block m c hW t) (bias_block m c hB t) j

/-- The four points of a batch in turn: after the last one every key tile is absorbed. -/
theorem all_absorbed (hQ : IsReal (Qa m c)) (hK : IsReal (Ka m c)) (hV : IsReal (Va m c)) (t : Fin cfg0.N) (b : Fin 32) (hb : b.val = t.val / 4) (h3 : t.val % 4 = 3) :
    Absorbed (re2 (Qa m c)) (re3 (Ka m c)) (re3 (Va m c)) b Finset.univ
      (outsAt0 m c t.val t.isLt).2.1 (outsAt0 m c t.val t.isLt).2.2.1 (outsAt0 m c t.val t.isLt).2.2.2 := by
  have hN : cfg0.N = 128 := N_0
  have ht := t.isLt
  have a0 := after_first m c hQ hK hV ⟨t.val - 3, by omega⟩ b (by show b.val = (t.val - 3) / 4; omega) (by show (t.val - 3) % 4 = 0; omega)
  have a1 := after_middle m c hQ hK hV ⟨t.val - 2, by omega⟩ b (by show b.val = (t.val - 2) / 4; omega) 1
    (by show (1 : ℕ) = (t.val - 2) % 4; omega) (by show ¬(t.val - 2) % 4 = 0; omega) (by show ¬(t.val - 2) % 4 = 3; omega) {0} (by decide)
    (by
      have e : (t.val - 2) - 1 = t.val - 3 := by omega
      show Absorbed _ _ _ b {0} (outsAt0 m c ((t.val - 2) - 1) _).2.1 (outsAt0 m c ((t.val - 2) - 1) _).2.2.1 (outsAt0 m c ((t.val - 2) - 1) _).2.2.2
      simp only [e]
      exact a0)
  have a2 := after_middle m c hQ hK hV ⟨t.val - 1, by omega⟩ b (by show b.val = (t.val - 1) / 4; omega) 2
    (by show (2 : ℕ) = (t.val - 1) % 4; omega) (by show ¬(t.val - 1) % 4 = 0; omega) (by show ¬(t.val - 1) % 4 = 3; omega) (insert 1 {0}) (by decide)
    (by
      have e : (t.val - 1) - 1 = t.val - 2 := by omega
      show Absorbed _ _ _ b (insert 1 {0}) (outsAt0 m c ((t.val - 1) - 1) _).2.1 (outsAt0 m c ((t.val - 1) - 1) _).2.2.1 (outsAt0 m c ((t.val - 1) - 1) _).2.2.2
      simp only [e]
      exact a1)
  have a3 := after_last m c hQ hK hV t b hb 3 (by show (3 : ℕ) = t.val % 4; omega) (by omega) h3 (insert 2 (insert 1 {0})) (by decide) a2
  have eU : (insert 3 (insert 2 (insert 1 {0})) : Finset (Fin 4)) = Finset.univ := by decide
  rw [eU] at a3
  exact a3

end Points

end Cert.KernelIdeal.Chain

end
-- ==== Proof.TailCover.lean ====
/-
  The two ends of the kernel's value: where the output window's blocks sit, and what the line after the region does.

  The region writes the array `main_v17 : f32[32, 1, 1024]` one row at a time: the grid is 32 × 4, the output window's
  block at point `t` is row `t / 4` (block index `(t / 4, 0, 0)`, block shape `[1, 1, 1024]`), and it is written back at
  the points with `t % 4 = 3`. So row `b` is written back at point `4b + 3`, and these 32 blocks cover the array.
  After the region one operation remains, a reshape of `[32, 1, 1024]` to `[32, 1024]`, which keeps the row-major
  order: entry `(b, j)` of the result is entry `(b, 0, j)` of the array.
-/
import proofs.«137162_j44925357916178_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.TailCover

open Idealize.ShloMosaic Idealize.ShloMosaic.ValueIdx Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- The block index of the output window at point `t`, decided over the grid: `(t / 4, 0, 0)`. -/
theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, win0_6.index t (0 : Fin 3) = t.val / 4 ∧ win0_6.index t (1 : Fin 3) = 0 ∧ win0_6.index t (2 : Fin 3) = 0)

/-- An index lies in the block of point `t` iff, on every axis, it lies in the block's interval. -/
theorem mem_blk6 (t : Fin cfg0.N) (i : S32x1x1024.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v17).slice (win0_6.rect t)).set ↔ _
  rw [View.set_slice_whole, Rect.mem_set_unit]
  exact Iff.rfl

/-- THE COVER: every index of the array lies in a block that is written back — row `b` in the block of point `4b + 3`. -/
theorem cover6 (i : S32x1x1024.Idx) : ∃ t : Fin cfg0.N, (cfg0.win 6).flush t = true ∧ i ∈ ((cfg0.win 6).blk t).view.set := by
  have hN : cfg0.N = 128 := N_0
  have h0 : (i 0).val < 32 := (i 0).isLt
  have h1 : (i 1).val < 1 := (i 1).isLt
  have h2 : (i 2).val < 1024 := (i 2).isLt
  refine ⟨⟨4 * (i 0).val + 3, by omega⟩, (flush0_6 _).mpr (by show (4 * (i 0).val + 3) % 4 = 3; omega), ?_⟩
  rw [mem_blk6]
  obtain ⟨e0, e1, e2⟩ := idx6 ⟨4 * (i 0).val + 3, by omega⟩
  intro a
  match a with
  | ⟨0, _⟩ => show win0_6.index _ (0 : Fin 3) * 1 ≤ (i 0).val ∧ (i 0).val < win0_6.index _ (0 : Fin 3) * 1 + 1; rw [e0]; show (4 * (i 0).val + 3) / 4 * 1 ≤ _ ∧ _ < (4 * (i 0).val + 3) / 4 * 1 + 1; omega
  | ⟨1, _⟩ => show win0_6.index _ (1 : Fin 3) * 1 ≤ (i 1).val ∧ (i 1).val < win0_6.index _ (1 : Fin 3) * 1 + 1; rw [e1]; omega
  | ⟨2, _⟩ => show win0_6.index _ (2 : Fin 3) * 1024 ≤ (i 2).val ∧ (i 2).val < win0_6.index _ (2 : Fin 3) * 1024 + 1024; rw [e2]; omega

/-- THE TAIL: after the region's one remaining operation the result holds the array the region wrote, reshaped. -/
theorem tail_result (c : Dev nD) :
    Pipeline.afterTail₀ cfgs (dats m) 0 (V0 m) [hostOps1] c main_v18
      = shapeCast S32x1024 ((dats m 0 c).arrAt 6 cfg0.N) shapeCasts_S32x1x1024_S32x1024 := by
  unfold Pipeline.afterTail₀
  show StableHlo.after hostOps1 _ (Proc.devRef .tc main_v18) = _
  after_results
  funext i
  exact congrArg (fun x => shapeCast S32x1024 x shapeCasts_S32x1x1024_S32x1024 i)
    (Pipeline.withArrays_arr spec0 launch0.win.arr_inj c (V0 m c) (fun w => (dats m 0 c).arrAt w (cfgs 0).N) 6)

/-- The reshape of `[32, 1, 1024]` to `[32, 1024]` read at `(b, j)`: the operand at `(b, 0, j)`. -/
theorem reshape_apply (x : S32x1x1024.Idx → Elt F .f32) (b : Fin 32) (j : Fin 1024) :
    shapeCast S32x1024 x shapeCasts_S32x1x1024_S32x1024 (ix2 b j) = x (ix3 b (0 : Fin 1) j) :=
  shapeCast_apply x shapeCasts_S32x1x1024_S32x1024 _ _ (by
    rw [Shape.rowMajor_val_three, Shape.rowMajor_val_two]
    show (b.val * 1 + 0) * 1024 + j.val = b.val * 1024 + j.val
    omega)

/-- Entry `y` of the block of point `t` is entry `(t / 4, 0, y₂)` of the array. -/
theorem blk6_emb (t : Fin cfg0.N) (y : S1x1x1024.Idx) :
    (((cfg0.win 6).blk t).view.emb y : S32x1x1024.Idx)
      = ix3 (⟨t.val / 4, by have := t.isLt; have : cfg0.N = 128 := N_0; omega⟩ : Fin 32) (0 : Fin 1) (⟨(y 2).val, (y 2).isLt⟩ : Fin 1024) := by
  have h0 : (y 0).val < 1 := (y 0).isLt
  have h1 : (y 1).val < 1 := (y 1).isLt
  obtain ⟨e0, e1, e2⟩ := idx6 t
  funext a
  apply Fin.ext
  match a with
  | ⟨0, _⟩ => show win0_6.index t (0 : Fin 3) * 1 + 1 * (y 0).val = t.val / 4; rw [e0]; omega
  | ⟨1, _⟩ => show win0_6.index t (1 : Fin 3) * 1 + 1 * (y 1).val = 0; rw [e1]; omega
  | ⟨2, _⟩ => show win0_6.index t (2 : Fin 3) * 1024 + 1 * (y 2).val = (y 2).val; rw [e2]; omega

/-- THE RUN, read: the result is the reshaped output array as the proof data computes it, the arguments unchanged. -/
theorem run_result : θ_run defs (onTc (τ := τ) (main (F := F))) ⟨m, fun _ => 0, ρ⟩ fun r => ∀ c : Dev nD,
      r.2.mem ((c.tc : Thread nD τ).loc main_v18) = shapeCast S32x1024 ((dats m 0 c).arrAt 6 cfg0.N) shapeCasts_S32x1x1024_S32x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v18 (Pipeline.mem_restRefs_of main_v18 (by decide) (by decide))).trans (tail_result m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.KernelIdeal.TailCover
end
-- ==== Proof.KernelValue.lean ====
/-
  The kernel's result array.

  Output block `(t / 4, 0, 0)` is written back by the last point of each batch and holds the specification's row of that
  batch; the thirty-two blocks are the thirty-two rows of the output array, and the program's result is that array with
  its unit axis dropped.
-/
import proofs.«137162_j44925357916178_2_alg».proof.Proof.Chain
import proofs.«137162_j44925357916178_2_alg».proof.Proof.TailCover
import Idealize.ShloMosaic.Lib.Pipeline.Value

noncomputable section

open Idealize.ShloMosaic Idealize.ShloMosaic.ValueIdx Idealize.ShloMosaic.TcCoe Idealize.SL.Sem
open Idealize.ShloMosaic.Pipeline (Dat)

namespace Cert.KernelIdeal.KernelValue

open Cert.KernelIdeal Cert.KernelIdeal.Gen Cert.Attn Cert.KernelIdeal.Chain

set_option maxRecDepth 65536
set_option maxHeartbeats 1000000

variable (m : (ℓ : Loc nD τ sig) → Buf (Elt Ideal) ℓ) (ρ : Dev nD → PrngReg) (c : Dev nD)

/-- The output array as the specification gives it: entry `(b, 0, j)` is the result's entry `(b, j)`. -/
def G6 : Buf (Elt Ideal) ((c : Thread nD τ).loc main_v17) :=
  fun (i : S32x1x1024.Idx) => G (Qa m c) (Ka m c) (Va m c) (Wa m c) (Ba m c) (⟨(i 0).val, (i 0).isLt⟩ : Fin 32) (⟨(i 2).val, (i 2).isLt⟩ : Fin 1024)

/-- WHAT A WRITING POINT WRITES BACK: the last point of batch `t / 4` writes row `t / 4` of the specification. -/
theorem flushed6 (hQ : IsReal (Qa m c)) (hK : IsReal (Ka m c)) (hV : IsReal (Va m c)) (hW : IsReal (Wa m c)) (hB : IsReal (Ba m c)) (t : Fin cfg0.N) (hf : (cfg0.win 6).flush t = true) :
    (dats m 0 c).flushed 6 t = ((cfg0.win 6).blk t).view.read (Elt Ideal) (G6 m c) := by
  have h3 : t.val % 4 = 3 := (flush0_6 t).mp hf
  have hN : cfg0.N = 128 := N_0
  have ht := t.isLt
  show (cfg0.win 6).cut (grid0.coords t) ((dats m 0 c).after 6 t) = _
  rw [after0_6]
  funext y
  rw [View.read_apply, TailCover.blk6_emb t y]
  obtain ⟨y0, y1, j, rfl⟩ : ∃ (a b' : Fin 1) (j : Fin 1024), y = ix3 a b' j := ⟨y 0, y 1, y 2, eq_ix3 y⟩
  obtain rfl : y0 = 0 := Subsingleton.elim _ _
  obtain rfl : y1 = 0 := Subsingleton.elim _ _
  show (outsAt0 m c t.val t.isLt).1 (ix3 (0 : Fin 1) (0 : Fin 1) j) = _
  rw [out_last m c hW hB t ⟨t.val / 4, by omega⟩ h3 (all_absorbed m c hQ hK hV t ⟨t.val / 4, by omega⟩ rfl h3) j]
  rfl

/-- THE OUTPUT ARRAY after the run: the thirty-two writing points' blocks are its thirty-two rows. -/
theorem final6 (hQ : IsReal (Qa m c)) (hK : IsReal (Ka m c)) (hV : IsReal (Va m c)) (hW : IsReal (Wa m c)) (hB : IsReal (Ba m c)) : (dats m 0 c).arrAt 6 cfg0.N = G6 m c :=
  (dats m 0 c).arrAt_eq_of_cover 6 (G6 m c) (flushed6 m c hQ hK hV hW hB) TailCover.cover6

/-- The program's result: the output array with its unit axis dropped. -/
def result : Buf (Elt Ideal) ((c : Thread nD τ).loc main_v18) :=
  shapeCast S32x1024 (G6 m c) shapeCasts_S32x1x1024_S32x1024

theorem result_apply (b : Fin 32) (j : Fin 1024) : (result m c : S32x1024.Idx → EReal) (ix2 b j) = G (Qa m c) (Ka m c) (Va m c) (Wa m c) (Ba m c) b j :=
  TailCover.reshape_apply (F := Ideal) (G6 m c) b j

/-- The run, read: the result at the specification, the arguments unchanged. -/
theorem run (hfin : ∀ c : Dev nD, IsReal (Qa m c) ∧ IsReal (Ka m c) ∧ IsReal (Va m c) ∧ IsReal (Wa m c) ∧ IsReal (Ba m c)) :
    θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans
      (congrArg (fun x => shapeCast S32x1024 x shapeCasts_S32x1x1024_S32x1024)
        (final6 m c (hfin c).1 (hfin c).2.1 (hfin c).2.2.1 (hfin c).2.2.2.1 (hfin c).2.2.2.2)), (h c).2⟩)
    (TailCover.run_result m ρ)

end Cert.KernelIdeal.KernelValue

end
-- ==== Proof.lean ====
/-
  Single-query attention with sixteen heads of 64 columns over 4096 keys, followed by a linear layer: the kernel streams
  the keys and values in four tiles of 1024 rows per batch and keeps, per head, a running maximum, a running sum of
  exponentials and a running weighted sum of value rows, rescaling the two sums whenever the maximum grows; the reference
  forms the scores of all 4096 keys, takes one softmax per head and one weighted sum.

  Both compute, at entry `(b, j)`,  `(∑_c ctx[b, c] · w[j, c]) + β[j]`  with
  `ctx[b, c] = (∑_s exp e[b, c/64, s] · v[b, s, c]) / (∑_s exp e[b, c/64, s])`  and
  `e[b, h, s] = (∑_{d < 64} q[b, 64h + d] · k[b, s, 64h + d]) / 8`.
  A softmax does not depend on the number subtracted from the scores before exponentiating: the reference subtracts the
  row maximum, the kernel whatever its running maximum is when a tile arrives, and rescaling a partial sum of
  `exp (e − μ)` by `exp (μ − μ')` turns it into the partial sum of `exp (e − μ')`. The kernel multiplies the scores by
  `1/8` where the reference divides by `√64`; its head-indicator matrix products pick the entries of a column's own
  head. All of this is arithmetic of real numbers, the inputs being finite.
-/
import proofs.«137162_j44925357916178_2_alg».proof.Defs
import proofs.«137162_j44925357916178_2_alg».proof.Proof.Gen.Kernel
import proofs.«137162_j44925357916178_2_alg».proof.Proof.Gen.Kernel.Skeleton
import proofs.«137162_j44925357916178_2_alg».proof.Proof.Gen.Kernel.Launch
import proofs.«137162_j44925357916178_2_alg».proof.Proof.Gen.Kernel.Points
import proofs.«137162_j44925357916178_2_alg».proof.Proof.Gen.Kernel.Frame
import proofs.«137162_j44925357916178_2_alg».proof.Proof.Gen.KernelIdeal
import proofs.«137162_j44925357916178_2_alg».proof.Proof.Gen.KernelIdeal.Skeleton
import proofs.«137162_j44925357916178_2_alg».proof.Proof.Gen.KernelIdeal.Launch
import proofs.«137162_j44925357916178_2_alg».proof.Proof.Gen.KernelIdeal.Points
import proofs.«137162_j44925357916178_2_alg».proof.Proof.Gen.KernelIdeal.Frame
import proofs.«137162_j44925357916178_2_alg».proof.Proof.Gen.ReferenceIdeal
import proofs.«137162_j44925357916178_2_alg».proof.Proof.Gen.ReferenceIdeal.Run
import proofs.«137162_j44925357916178_2_alg».proof.Proof.Gen.ReferenceIdeal.Read
import proofs.«137162_j44925357916178_2_alg».proof.Proof.Gen.Pre_finite_inputs
import proofs.«137162_j44925357916178_2_alg».proof.Proof.FiniteArgs
import proofs.«137162_j44925357916178_2_alg».proof.Proof.RefValue
import proofs.«137162_j44925357916178_2_alg».proof.Proof.KernelValue
import Idealize.ShloMosaic.Adequacy
import Idealize.ShloMosaic.Init

noncomputable section

namespace Cert.Proof

open Idealize.ShloMosaic Idealize.ShloMosaic.ValueIdx Idealize.SL.Sem Cert.Attn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the five finite arguments both programs end at the specification `Cert.Attn.G` of them. -/
theorem algebraic : Cert.algebraic_KernelIdeal_ReferenceIdeal := by
  intro m ρ m' ρ' hpre hagree
  have hfin : ∀ c : Dev Cert.KernelIdeal.nD,
      IsReal (Cert.KernelIdeal.Chain.Qa m c) ∧ IsReal (Cert.KernelIdeal.Chain.Ka m c) ∧ IsReal (Cert.KernelIdeal.Chain.Va m c)
        ∧ IsReal (Cert.KernelIdeal.Chain.Wa m c) ∧ IsReal (Cert.KernelIdeal.Chain.Ba m c) :=
    fun c => Cert.Attn.Finite.isReal_of_pre _ _ _ _ _ (hpre c)
  refine ⟨fun c => Cert.KernelIdeal.KernelValue.result m c, Cert.KernelIdeal.KernelValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2]
  funext i
  obtain ⟨b, j, rfl⟩ : ∃ (b : Fin 32) (j : Fin 1024), i = ix2 b j := ⟨i 0, i 1, eq_ix2 i⟩
  rw [Cert.ReferenceIdeal.RefValue.ref_value _ _ _ _ _ (hfin c).1 (hfin c).2.1 (hfin c).2.2.1 (hfin c).2.2.2.1
    (hfin c).2.2.2.2 b j]
  exact (Cert.KernelIdeal.KernelValue.result_apply m c b j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
